-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S20000 : Shape := ⟨1, ![20000]⟩
abbrev S500000 : Shape := ⟨1, ![500000]⟩
abbrev S20000x128 : Shape := ⟨2, ![20000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S128x128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_arg16 main_v48 main_v49 main_v50

def fn_part1 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S100000x128 .f32) (main_arg1 : IVec S20000 32) (main_arg2 : IVec S500000 32) (main_arg3 : IVec S500000 32) (main_arg4 : FVec F S20000x128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S20000x128 .f32 := Host.absf main_arg4
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_arg16 main_v13 main_v16
-- ==== Kernel.lean ====
abbrev S100000x128 : Shape := ⟨2, ![100000, 128]⟩
abbrev S20000 : Shape := ⟨1, ![20000]⟩
abbrev S500000 : Shape := ⟨1, ![500000]⟩
abbrev S20000x128 : Shape := ⟨2, ![20000, 128]⟩
abbrev S128x128 : Shape := ⟨2, ![128, 128]⟩
abbrev S128 : Shape := ⟨1, ![128]⟩
abbrev S_ : Shape := ⟨0, ![]⟩
abbrev S20000x1 : Shape := ⟨2, ![20000, 1]⟩
abbrev S500000x1 : Shape := ⟨2, ![500000, 1]⟩
abbrev S500000x128 : Shape := ⟨2, ![500000, 128]⟩
abbrev S1x128 : Shape := ⟨2, ![1, 128]⟩
abbrev S10000x128 : Shape := ⟨2, ![10000, 128]⟩
abbrev S100000 : Shape := ⟨1, ![100000]⟩
abbrev S100000x1 : Shape := ⟨2, ![100000, 1]⟩

abbrev nBuf : Space → Nat
  | .hbm => 134
  | .vmem => 36
  | .smem => 0
  | _ => 0

abbrev hbmTy0_0 (i : Nat) : BufTy := match i % 128 with
  | 0 => ⟨S100000x128, .f32⟩
  | 1 => ⟨S20000, .i32⟩
  | 2 => ⟨S500000, .i32⟩
  | 3 => ⟨S500000, .i32⟩
  | 4 => ⟨S20000x128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S_, .i32⟩
  | 18 => ⟨S20000, .i32⟩
  | 19 => ⟨S20000, .i1⟩
  | 20 => ⟨S_, .i32⟩
  | 21 => ⟨S20000, .i32⟩
  | 22 => ⟨S20000, .i32⟩
  | 23 => ⟨S20000, .i32⟩
  | 24 => ⟨S20000x1, .i32⟩
  | 25 => ⟨S20000x128, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x128, .f32⟩
  | 35 => ⟨S_, .f32⟩
  | 36 => ⟨S20000x128, .f32⟩
  | 37 => ⟨S500000x1, .i32⟩
  | 38 => ⟨S20000x128, .f32⟩
  | 39 => ⟨S_, .f32⟩
  | 40 => ⟨S500000, .f32⟩
  | 41 => ⟨S_, .f32⟩
  | 42 => ⟨S20000, .f32⟩
  | 43 => ⟨S500000x1, .i32⟩
  | 44 => ⟨S20000, .f32⟩
  | 45 => ⟨S_, .f32⟩
  | 46 => ⟨S20000, .f32⟩
  | 47 => ⟨S20000, .f32⟩
  | 48 => ⟨S20000x1, .f32⟩
  | 49 => ⟨S20000x128, .f32⟩
  | 50 => ⟨S20000x128, .f32⟩
  | 51 => ⟨S1x128, .f32⟩
  | 52 => ⟨S20000x128, .f32⟩
  | 53 => ⟨S_, .i32⟩
  | 54 => ⟨S500000, .i32⟩
  | 55 => ⟨S500000, .i1⟩
  | 56 => ⟨S_, .i32⟩
  | 57 => ⟨S500000, .i32⟩
  | 58 => ⟨S500000, .i32⟩
  | 59 => ⟨S500000, .i32⟩
  | 60 => ⟨S500000x1, .i32⟩
  | 61 => ⟨S500000x128, .f32⟩
  | 62 => ⟨S_, .f32⟩
  | 63 => ⟨S100000x128, .f32⟩
  | 64 => ⟨S500000x1, .i32⟩
  | 65 => ⟨S100000x128, .f32⟩
  | 66 => ⟨S_, .f32⟩
  | 67 => ⟨S500000, .f32⟩
  | 68 => ⟨S_, .f32⟩
  | 69 => ⟨S100000, .f32⟩
  | 70 => ⟨S500000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x128, .f32⟩
  | 77 => ⟨S100000x128, .f32⟩
  | 78 => ⟨S1x128, .f32⟩
  | 79 => ⟨S100000x128, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000x128, .f32⟩
  | 89 => ⟨S_, .f32⟩
  | 90 => ⟨S20000x128, .f32⟩
  | 91 => ⟨S500000x1, .i32⟩
  | 92 => ⟨S20000x128, .f32⟩
  | 93 => ⟨S_, .f32⟩
  | 94 => ⟨S500000, .f32⟩
  | 95 => ⟨S_, .f32⟩
  | 96 => ⟨S20000, .f32⟩
  | 97 => ⟨S500000x1, .i32⟩
  | 98 => ⟨S20000, .f32⟩
  | 99 => ⟨S_, .f32⟩
  | 100 => ⟨S20000, .f32⟩
  | 101 => ⟨S20000, .f32⟩
  | 102 => ⟨S20000x1, .f32⟩
  | 103 => ⟨S20000x128, .f32⟩
  | 104 => ⟨S20000x128, .f32⟩
  | 105 => ⟨S1x128, .f32⟩
  | 106 => ⟨S20000x128, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x128, .f32⟩
  | 116 => ⟨S_, .f32⟩
  | 117 => ⟨S100000x128, .f32⟩
  | 118 => ⟨S500000x1, .i32⟩
  | 119 => ⟨S100000x128, .f32⟩
  | 120 => ⟨S_, .f32⟩
  | 121 => ⟨S500000, .f32⟩
  | 122 => ⟨S_, .f32⟩
  | 123 => ⟨S100000, .f32⟩
  | 124 => ⟨S500000x1, .i32⟩
  | 125 => ⟨S100000, .f32⟩
  | 126 => ⟨S_, .f32⟩
  | 127 => ⟨S100000, .f32⟩
  | _ => ⟨S100000x128, .f32⟩

abbrev hbmTy0_1 (i : Nat) : BufTy := match i % 128 with
  | 0 => ⟨S100000, .f32⟩
  | 1 => ⟨S100000x1, .f32⟩
  | 2 => ⟨S100000x128, .f32⟩
  | 3 => ⟨S100000x128, .f32⟩
  | 4 => ⟨S1x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_cst_10 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_12 : Ref sig .tc := ⟨.hbm, 80, rfl⟩
abbrev main_v49 : Ref sig .tc := ⟨.hbm, 81, rfl⟩
abbrev main_v50 : Ref sig .tc := ⟨.hbm, 82, rfl⟩
abbrev main_c_13 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_15 : Ref sig .tc := ⟨.hbm, 93, rfl⟩
abbrev main_v59 : Ref sig .tc := ⟨.hbm, 94, rfl⟩
abbrev main_cst_16 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_c_18 : Ref sig .tc := ⟨.hbm, 107, rfl⟩
abbrev main_v70 : Ref sig .tc := ⟨.hbm, 108, rfl⟩
abbrev main_v71 : Ref sig .tc := ⟨.hbm, 109, rfl⟩
abbrev main_c_19 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_20 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_21 : Ref sig .tc := ⟨.hbm, 120, rfl⟩
abbrev main_v80 : Ref sig .tc := ⟨.hbm, 121, rfl⟩
abbrev main_cst_22 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_23 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S20000x128_S20000x1_S20000x128_1_0_n_n_0_1_1128_wf : GatherDims.WF S20000x128 S20000x1 S20000x128 [1] [0] [] [0] [] 1 ![1, 128]
  gather_S100000x128_S500000x1_S500000x128_1_0_n_n_0_1_1128_wf : GatherDims.WF S100000x128 S500000x1 S500000x128 [1] [0] [] [0] [] 1 ![1, 128]
  scatter_S20000x128_S500000x1_S500000x128_1_0_0_1_wf : ScatterDims.WF S20000x128 S500000x1 S500000x128 [1] [0] [0] 1
  scatter_S20000_S500000x1_S500000_n_0_0_1_wf : ScatterDims.WF S20000 S500000x1 S500000 [] [0] [0] 1
  dot_S10000x128_S128x128_S10000x128_1_0_0_1_n_n_wf : DotDims.WF S10000x128 S128x128 S10000x128 [1] [0] [0] [1] [] []
  gather_S20000x128_S500000x1_S500000x128_1_0_n_n_0_1_1128_wf : GatherDims.WF S20000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S20000x128.size a
  hwx0_0 : ∀ i : grid0.Coords, EltTy.bits .f32 = 32 ∨ (Rect.block (s := S20000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S20000x128.size a
  hwx0_1 : ∀ i : grid0.Coords, EltTy.bits .f32 = 32 ∨ (Rect.block (s := S20000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S20000x128.size a
  hwx0_5 : ∀ i : grid0.Coords, EltTy.bits .f32 = 32 ∨ (Rect.block (s := S20000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S20000x128.size a
  hwx2_0 : ∀ i : grid2.Coords, EltTy.bits .f32 = 32 ∨ (Rect.block (s := S20000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S20000x128.size a
  hwx2_1 : ∀ i : grid2.Coords, EltTy.bits .f32 = 32 ∨ (Rect.block (s := S20000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S20000x128.size a
  hwx2_5 : ∀ i : grid2.Coords, EltTy.bits .f32 = 32 ∨ (Rect.block (s := S20000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)

variable [Facts₀]

def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

abbrev win0_0 : Pipeline.Window sig grid0 :=
  Pipeline.Window.ofSpec (Memref.whole main_v25) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v67) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v69) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v88) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S20000 : Shape := ⟨1, ![20000]⟩
abbrev S500000 : Shape := ⟨1, ![500000]⟩
abbrev S20000x128 : Shape := ⟨2, ![20000, 128]⟩
abbrev S128x128 : Shape := ⟨2, ![128, 128]⟩
abbrev S128 : Shape := ⟨1, ![128]⟩
abbrev S_ : Shape := ⟨0, ![]⟩
abbrev S20000x1 : Shape := ⟨2, ![20000, 1]⟩
abbrev S500000x1 : Shape := ⟨2, ![500000, 1]⟩
abbrev S500000x128 : Shape := ⟨2, ![500000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S20000, .i32⟩
  | 2 => ⟨S500000, .i32⟩
  | 3 => ⟨S500000, .i32⟩
  | 4 => ⟨S20000x128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S_, .i32⟩
  | 18 => ⟨S20000, .i32⟩
  | 19 => ⟨S20000, .i1⟩
  | 20 => ⟨S_, .i32⟩
  | 21 => ⟨S20000, .i32⟩
  | 22 => ⟨S20000, .i32⟩
  | 23 => ⟨S20000, .i32⟩
  | 24 => ⟨S20000x1, .i32⟩
  | 25 => ⟨S20000x128, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x128, .f32⟩
  | 35 => ⟨S_, .f32⟩
  | 36 => ⟨S20000x128, .f32⟩
  | 37 => ⟨S500000x1, .i32⟩
  | 38 => ⟨S20000x128, .f32⟩
  | 39 => ⟨S_, .f32⟩
  | 40 => ⟨S500000, .f32⟩
  | 41 => ⟨S_, .f32⟩
  | 42 => ⟨S20000, .f32⟩
  | 43 => ⟨S500000x1, .i32⟩
  | 44 => ⟨S20000, .f32⟩
  | 45 => ⟨S_, .f32⟩
  | 46 => ⟨S20000, .f32⟩
  | 47 => ⟨S20000, .f32⟩
  | 48 => ⟨S20000x1, .f32⟩
  | 49 => ⟨S20000x128, .f32⟩
  | 50 => ⟨S20000x128, .f32⟩
  | 51 => ⟨S20000x128, .f32⟩
  | 52 => ⟨S1x128, .f32⟩
  | 53 => ⟨S20000x128, .f32⟩
  | 54 => ⟨S20000x128, .f32⟩
  | 55 => ⟨S20000x128, .f32⟩
  | 56 => ⟨S20000x128, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x128, .f32⟩
  | 66 => ⟨S_, .f32⟩
  | 67 => ⟨S100000x128, .f32⟩
  | 68 => ⟨S500000x1, .i32⟩
  | 69 => ⟨S100000x128, .f32⟩
  | 70 => ⟨S_, .f32⟩
  | 71 => ⟨S500000, .f32⟩
  | 72 => ⟨S_, .f32⟩
  | 73 => ⟨S100000, .f32⟩
  | 74 => ⟨S500000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S100000x128, .f32⟩
  | 87 => ⟨S100000x128, .f32⟩
  | 88 => ⟨S_, .f32⟩
  | 89 => ⟨S20000x128, .f32⟩
  | 90 => ⟨S20000x128, .f32⟩
  | 91 => ⟨S_, .f32⟩
  | 92 => ⟨S100000x128, .f32⟩
  | 93 => ⟨S100000x128, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x128, .f32⟩
  | 103 => ⟨S_, .f32⟩
  | 104 => ⟨S20000x128, .f32⟩
  | 105 => ⟨S500000x1, .i32⟩
  | 106 => ⟨S20000x128, .f32⟩
  | 107 => ⟨S_, .f32⟩
  | 108 => ⟨S500000, .f32⟩
  | 109 => ⟨S_, .f32⟩
  | 110 => ⟨S20000, .f32⟩
  | 111 => ⟨S500000x1, .i32⟩
  | 112 => ⟨S20000, .f32⟩
  | 113 => ⟨S_, .f32⟩
  | 114 => ⟨S20000, .f32⟩
  | 115 => ⟨S20000, .f32⟩
  | 116 => ⟨S20000x1, .f32⟩
  | 117 => ⟨S20000x128, .f32⟩
  | 118 => ⟨S20000x128, .f32⟩
  | 119 => ⟨S20000x128, .f32⟩
  | 120 => ⟨S1x128, .f32⟩
  | 121 => ⟨S20000x128, .f32⟩
  | 122 => ⟨S20000x128, .f32⟩
  | 123 => ⟨S20000x128, .f32⟩
  | 124 => ⟨S20000x128, .f32⟩
  | 125 => ⟨S_, .i32⟩
  | 126 => ⟨S500000, .i32⟩
  | 127 => ⟨S500000, .i1⟩
  | _ => ⟨S100000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S_, .f32⟩
  | 7 => ⟨S100000x128, .f32⟩
  | 8 => ⟨S500000x1, .i32⟩
  | 9 => ⟨S100000x128, .f32⟩
  | 10 => ⟨S_, .f32⟩
  | 11 => ⟨S500000, .f32⟩
  | 12 => ⟨S_, .f32⟩
  | 13 => ⟨S100000, .f32⟩
  | 14 => ⟨S500000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S100000x128, .f32⟩
  | 27 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_8 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_cst_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_11 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_call0_cst : Ref sig .tc := ⟨.hbm, 88, rfl⟩
abbrev main_call0_v0 : Ref sig .tc := ⟨.hbm, 89, rfl⟩
abbrev main_v57 : Ref sig .tc := ⟨.hbm, 90, rfl⟩
abbrev main_call1_cst : Ref sig .tc := ⟨.hbm, 91, rfl⟩
abbrev main_call1_v0 : Ref sig .tc := ⟨.hbm, 92, rfl⟩
abbrev main_v58 : Ref sig .tc := ⟨.hbm, 93, rfl⟩
abbrev main_c_12 : Ref sig .tc := ⟨.hbm, 94, rfl⟩
abbrev main_v59 : Ref sig .tc := ⟨.hbm, 95, rfl⟩
abbrev main_v60 : Ref sig .tc := ⟨.hbm, 96, rfl⟩
abbrev main_c_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_cst_16 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_17 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_c_19 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_21 : Ref sig .tc := ⟨.hbm, 138, rfl⟩
abbrev main_v94 : Ref sig .tc := ⟨.hbm, 139, rfl⟩
abbrev main_cst_22 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_cst_23 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S20000x128 : S_.BroadcastsInDim S20000x128 (![] : Fin 0 → Fin S20000x128.rank)
  bcast_S20000x1_S20000x128_0_1 : S20000x1.BroadcastsInDim S20000x128 (![0, 1] : Fin 2 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  gather_S20000x128_S20000x1_S20000x128_1_0_n_n_0_1_1128_wf : GatherDims.WF S20000x128 S20000x1 S20000x128 [1] [0] [] [0] [] 1 ![1, 128]
  gather_S100000x128_S500000x1_S500000x128_1_0_n_n_0_1_1128_wf : GatherDims.WF S100000x128 S500000x1 S500000x128 [1] [0] [] [0] [] 1 ![1, 128]
  scatter_S20000x128_S500000x1_S500000x128_1_0_0_1_wf : ScatterDims.WF S20000x128 S500000x1 S500000x128 [1] [0] [0] 1
  scatter_S20000_S500000x1_S500000_n_0_0_1_wf : ScatterDims.WF S20000 S500000x1 S500000 [] [0] [0] 1
  dot_S20000x128_S128x128_S20000x128_1_0_0_1_n_n_wf : DotDims.WF S20000x128 S128x128 S20000x128 [1] [0] [0] [1] [] []
  gather_S20000x128_S500000x1_S500000x128_1_0_n_n_0_1_1128_wf : GatherDims.WF S20000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x128_S100000x128_1_0_0_1_n_n_wf : DotDims.WF S100000x128 S128x128 S100000x128 [1] [0] [0] [1] [] []

variable [Facts₀]

def gather_S20000x128_S20000x1_S20000x128_1_0_n_n_0_1_1128 : GatherDims S20000x128 S20000x1 S20000x128 where
  offsetDims := [1]
  collapsedSliceDims := [0]
  operandBatchingDims := []
  startIndicesBatchingDims := []
  startIndexMap := [0]
  indexVectorDim := 1
  sliceSizes := ![1, 128]
  wf := gather_S20000x128_S20000x1_S20000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S20000x128_S500000x1_S500000x128_1_0_0_1 : ScatterDims S20000x128 S500000x1 S500000x128 where
  updateWindowDims := [1]
  insertedWindowDims := [0]
  scatterDimsToOperandDims := [0]
  indexVectorDim := 1
  wf := scatter_S20000x128_S500000x1_S500000x128_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageRun.lean ====
/-
  The idealized kernel's run with its results NAMED. @main is four kernel regions among four stretches of host
  operations; the buffer contents at each boundary are a fold from the launch memory (`Gen.W0` … `Gen.W8`: a stretch
  applies its operations, a region replaces its arrays by what its write-backs leave). Every weakly fair execution
  terminates with every unscoped buffer at the last boundary's contents `Gen.W8` (`run_boundary`); in particular the
  two result buffers hold `W8` at their references and the arguments are as launched (`run_results`).
-/
import proofs.«137762_j29463475650789_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Sage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, read at the two result buffers and at the arguments. -/
theorem run_results : θ_run defs (onTc (τ := τ) (main (F := F))) ⟨m, fun _ => 0, ρ⟩ (fun r => ∀ c : Dev nD,
      r.2.mem ((c.tc : Thread nD τ).loc main_v90) = W8 m ρ c (Proc.devRef .tc main_v90)
      ∧ r.2.mem ((c.tc : Thread nD τ).loc main_v69) = W8 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v90 (by decide)),
      h c _ (mem_uc main_v69 (by decide)),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c)⟩)
    (run_boundary m ρ)

end Cert.Sage

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.SageSpec.lean ====
/-
  The linear step of one SAGE layer, as a function of its operand arrays, entry by entry, on the extended
  reals: for a mean-aggregated message matrix `M` and the destination features `X` (both `[n, 128]`), weights
  `Wl`, `Wr` (`[128, 128]`) and a bias row `b`, entry `(p, c)` is
  `(∑ k, M (p, k) * Wl (k, c) + ∑ k, X (p, k) * Wr (k, c)) + b c`, optionally clamped below at zero.
  One program adds the two products first and the bias last, the other adds the bias to the first product and
  the second product last; addition on the extended reals is commutative and associative (also at the
  infinities), so the two orders are one value: `linAt_bias_first`.
-/
import Idealize.ShloMosaic.Lib.ValueIdx
import Idealize.ShloMosaic.PureOps.Ideal

noncomputable section

namespace Cert.Sage

open Idealize.ShloMosaic Idealize.ShloMosaic.ValueIdx

/-- Entry `(p, c)` of the linear step: both matrix products, then the bias. -/
def linAt {n : ℕ} (M X : FVec Ideal ⟨2, ![n, 128]⟩ .f32) (Wl Wr : FVec Ideal ⟨2, ![128, 128]⟩ .f32)
    (b : Fin 128 → Ideal .f32) (p : Fin n) (c : Fin 128) : Ideal .f32 :=
  ((∑ k : Fin 128, M (ix2 p k) * Wl (ix2 k c)) + ∑ k : Fin 128, X (ix2 p k) * Wr (ix2 k c)) + b c

/-- The same entry with the bias added to the first product before the second product is added. -/
theorem linAt_bias_first {n : ℕ} (M X : FVec Ideal ⟨2, ![n, 128]⟩ .f32) (Wl Wr : FVec Ideal ⟨2, ![128, 128]⟩ .f32)
    (b : Fin 128 → Ideal .f32) (p : Fin n) (c : Fin 128) :
    ((∑ k : Fin 128, M (ix2 p k) * Wl (ix2 k c)) + b c) + (∑ k : Fin 128, X (ix2 p k) * Wr (ix2 k c))
      = linAt M X Wl Wr b p c :=
  add_right_comm _ _ _

/-- The entry depends on row `p` of the two matrices, column `c` of the two weights and entry `c` of the bias only:
    the same rows, columns and bias entry read out of other arrays (a block of a larger array, say) give the same value. -/
theorem linAt_congr {n n' : ℕ} (M X : FVec Ideal ⟨2, ![n, 128]⟩ .f32) (M' X' : FVec Ideal ⟨2, ![n', 128]⟩ .f32)
    (Wl Wr Wl' Wr' : FVec Ideal ⟨2, ![128, 128]⟩ .f32) (b b' : Fin 128 → Ideal .f32)
    (p : Fin n) (p' : Fin n') (c c' : Fin 128)
    (hM : ∀ k : Fin 128, M (ix2 p k) = M' (ix2 p' k)) (hX : ∀ k : Fin 128, X (ix2 p k) = X' (ix2 p' k))
    (hWl : ∀ k : Fin 128, Wl (ix2 k c) = Wl' (ix2 k c')) (hWr : ∀ k : Fin 128, Wr (ix2 k c) = Wr' (ix2 k c'))
    (hb : b c = b' c') :
    linAt M X Wl Wr b p c = linAt M' X' Wl' Wr' b' p' c' := by
  unfold linAt
  rw [hb]
  refine congrArg₂ (· + ·) (congrArg₂ (· + ·) ?_ ?_) rfl
  · exact Finset.sum_congr rfl fun k _ => by rw [hM k, hWl k]
  · exact Finset.sum_congr rfl fun k _ => by rw [hX k, hWr k]

/-- The linear step as a whole `[n, 128]` array. -/
def lin {n : ℕ} (M X : FVec Ideal ⟨2, ![n, 128]⟩ .f32) (Wl Wr : FVec Ideal ⟨2, ![128, 128]⟩ .f32)
    (b : Fin 128 → Ideal .f32) : FVec Ideal ⟨2, ![n, 128]⟩ .f32 :=
  fun i => linAt M X Wl Wr b (i 0) (i 1)

/-- The linear step followed by the clamp at zero (the zero is the float pattern of `0.0`, never evaluated:
    both programs spell the same pattern). -/
def linRelu {n : ℕ} (M X : FVec Ideal ⟨2, ![n, 128]⟩ .f32) (Wl Wr : FVec Ideal ⟨2, ![128, 128]⟩ .f32)
    (b : Fin 128 → Ideal .f32) : FVec Ideal ⟨2, ![n, 128]⟩ .f32 :=
  fun i => max (linAt M X Wl Wr b (i 0) (i 1)) (FloatOps.ofBits (F := Ideal) .f32 0x00000000#32)

theorem lin_apply {n : ℕ} (M X : FVec Ideal ⟨2, ![n, 128]⟩ .f32) (Wl Wr : FVec Ideal ⟨2, ![128, 128]⟩ .f32)
    (b : Fin 128 → Ideal .f32) (p : Fin n) (c : Fin 128) : lin M X Wl Wr b (ix2 p c) = linAt M X Wl Wr b p c := rfl

theorem linRelu_apply {n : ℕ} (M X : FVec Ideal ⟨2, ![n, 128]⟩ .f32) (Wl Wr : FVec Ideal ⟨2, ![128, 128]⟩ .f32)
    (b : Fin 128 → Ideal .f32) (p : Fin n) (c : Fin 128) :
    linRelu M X Wl Wr b (ix2 p c) = max (linAt M X Wl Wr b p c) (FloatOps.ofBits (F := Ideal) .f32 0x00000000#32) := rfl

end Cert.Sage

end
-- ==== Proof.SagePayload.lean ====
/-
  What the kernel body stores, read at an entry. The body loads a `[10000, 128]` block of aggregated messages
  `x0` and of destination features `x1`, the two `[128, 128]` weight blocks `x2`, `x3` and the `[1, 128]` bias row
  `x4`, narrows the four matrix operands to bf16 (the identity on exact values), multiplies on the matrix unit into
  zero accumulators, adds the two products, adds the bias row broadcast over the rows and — in the first layer —
  clamps below at zero. So entry `(p, c)` of the stored block is the linear step `Cert.Sage.linAt` of the
  loaded blocks at `(p, c)`, clamped or not.
-/
import proofs.«137762_j29463475650789_1_alg».proof.Proof.Gen.KernelIdeal.Skeleton
import proofs.«137762_j29463475650789_1_alg».proof.Proof.LibMatmul
import proofs.«137762_j29463475650789_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

namespace Cert.Sage

open Idealize.ShloMosaic Idealize.ShloMosaic.ValueIdx Cert.KernelIdeal Cert.KernelIdeal.Gen

/-! ## Where the block product's operand indices come from -/

theorem blockDot_l0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem blockDot_l1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem blockDot_r0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem blockDot_r1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A block product of bf16-narrowed operands into a zero accumulator, at entry `(p, c)`: the sum over the
    contraction position of the un-narrowed entries' products. -/
theorem blockDot_apply (x : Vec Ideal S10000x128 .f32) (w : Vec Ideal S128x128 .f32) (p : Fin 10000) (c : Fin 128) :
    matmul (F := Ideal) dot_S10000x128_S128x128_S10000x128_1_0_0_1_n_n none
        (truncf .bf16 (shapeCast S10000x128 x shapeCasts_S10000x128_S10000x128) bitsLt_bf16_f32)
        (truncf .bf16 w bitsLt_bf16_f32) (constant S10000x128 .f32 0x00000000#32) (ix2 p c)
      = ∑ k : Fin 128, x (ix2 p k) * w (ix2 k c) := by
  refine (Cert.PlainDot.matmul_zero_apply dot_S10000x128_S128x128_S10000x128_1_0_0_1_n_n none rfl rfl
    blockDot_l0 blockDot_l1 blockDot_r0 blockDot_r1 _ _ p c).trans ?_
  rw [shapeCast_self]
  rfl

/-- The same with the left operand narrowed as loaded (no cast of the block to its own shape first). -/
theorem blockDot_apply' (x : Vec Ideal S10000x128 .f32) (w : Vec Ideal S128x128 .f32) (p : Fin 10000) (c : Fin 128) :
    matmul (F := Ideal) dot_S10000x128_S128x128_S10000x128_1_0_0_1_n_n none
        (truncf .bf16 x bitsLt_bf16_f32)
        (truncf .bf16 w bitsLt_bf16_f32) (constant S10000x128 .f32 0x00000000#32) (ix2 p c)
      = ∑ k : Fin 128, x (ix2 p k) * w (ix2 k c) := by
  refine (Cert.PlainDot.matmul_zero_apply dot_S10000x128_S128x128_S10000x128_1_0_0_1_n_n none rfl rfl
    blockDot_l0 blockDot_l1 blockDot_r0 blockDot_r1 _ _ p c).trans ?_
  rfl

/-- The bias row broadcast over the block's rows, at `(p, c)`: the row's entry `c`. -/
theorem biasBlock_apply (b : Vec Ideal S1x128 .f32) (p : Fin 10000) (c : Fin 128) :
    broadcastTo S10000x128 (shapeCast S1x128 (shapeCast S1x128 b shapeCasts_S1x128_S1x128) shapeCasts_S1x128_S1x128)
        broadcasts_S1x128_S10000x128 (ix2 p c) = b (ix2 (0 : Fin 1) c) := by
  refine (broadcastTo_1b_ab_apply _ broadcasts_S1x128_S10000x128 p c).trans ?_
  rw [shapeCast_self, shapeCast_self]

/-! ## The stored block at an entry -/

/-- First-layer body (regions 0 and 1): the linear step of the loaded blocks, clamped below at zero. -/
theorem pay0_apply (x0 x1 : Vec Ideal S10000x128 .f32) (x2 x3 : Vec Ideal S128x128 .f32) (x4 : Vec Ideal S1x128 .f32)
    (p : Fin 10000) (c : Fin 128) :
    k0_pay1 (F := Ideal) x0 x1 x2 x3 x4 (ix2 p c)
      = max (linAt x0 x1 x2 x3 (fun c => x4 (ix2 (0 : Fin 1) c)) p c) (FloatOps.ofBits (F := Ideal) .f32 0x00000000#32) := by
  unfold k0_pay1 linAt
  refine congrArg₂ max (congrArg₂ (· + ·) (congrArg₂ (· + ·) ?_ ?_) ?_) rfl
  · exact blockDot_apply x0 x2 p c
  · exact blockDot_apply x1 x3 p c
  · exact biasBlock_apply x4 p c

theorem pay1_apply (x0 x1 : Vec Ideal S10000x128 .f32) (x2 x3 : Vec Ideal S128x128 .f32) (x4 : Vec Ideal S1x128 .f32)
    (p : Fin 10000) (c : Fin 128) :
    k1_pay1 (F := Ideal) x0 x1 x2 x3 x4 (ix2 p c)
      = max (linAt x0 x1 x2 x3 (fun c => x4 (ix2 (0 : Fin 1) c)) p c) (FloatOps.ofBits (F := Ideal) .f32 0x00000000#32) := by
  unfold k1_pay1 linAt
  refine congrArg₂ max (congrArg₂ (· + ·) (congrArg₂ (· + ·) ?_ ?_) ?_) rfl
  · exact blockDot_apply x0 x2 p c
  · exact blockDot_apply' x1 x3 p c
  · exact biasBlock_apply x4 p c

/-- Second-layer body (regions 2 and 3): the linear step of the loaded blocks. -/
theorem pay2_apply (x0 x1 : Vec Ideal S10000x128 .f32) (x2 x3 : Vec Ideal S128x128 .f32) (x4 : Vec Ideal S1x128 .f32)
    (p : Fin 10000) (c : Fin 128) :
    k2_pay1 (F := Ideal) x0 x1 x2 x3 x4 (ix2 p c) = linAt x0 x1 x2 x3 (fun c => x4 (ix2 (0 : Fin 1) c)) p c := by
  unfold k2_pay1 linAt
  refine congrArg₂ (· + ·) (congrArg₂ (· + ·) ?_ ?_) ?_
  · exact blockDot_apply x0 x2 p c
  · exact blockDot_apply x1 x3 p c
  · exact biasBlock_apply x4 p c

theorem pay3_apply (x0 x1 : Vec Ideal S10000x128 .f32) (x2 x3 : Vec Ideal S128x128 .f32) (x4 : Vec Ideal S1x128 .f32)
    (p : Fin 10000) (c : Fin 128) :
    k3_pay1 (F := Ideal) x0 x1 x2 x3 x4 (ix2 p c) = linAt x0 x1 x2 x3 (fun c => x4 (ix2 (0 : Fin 1) c)) p c := by
  unfold k3_pay1 linAt
  refine congrArg₂ (· + ·) (congrArg₂ (· + ·) ?_ ?_) ?_
  · exact blockDot_apply x0 x2 p c
  · exact blockDot_apply x1 x3 p c
  · exact biasBlock_apply x4 p c

end Cert.Sage

end
-- ==== Proof.SageRegion0.lean ====
/-
  REGION 0 (the playlist side of the first layer), read as a whole array. The region's grid has two points; point
  `t` fetches rows `10000 t … 10000 t + 9999` of the aggregated messages and of the playlist features, the two whole
  weight matrices and the whole bias row, and writes back rows `10000 t …` of the result. The written block is the
  linear step of the fetched blocks clamped at zero (the body's payload at an entry), and a row of a fetched block is
  that row of the array, so every point writes its rows of ONE whole-array function of the arrays the region finds; the
  two blocks tile the `[20000, 128]` result, which therefore ends at that function.
-/
import proofs.«137762_j29463475650789_1_alg».proof.Proof.Gen.KernelIdeal.Frame
import proofs.«137762_j29463475650789_1_alg».proof.Proof.SagePayload
import Idealize.ShloMosaic.Lib.Pipeline.Value

set_option maxRecDepth 16384

noncomputable section

namespace Cert.Sage

open Idealize.ShloMosaic Idealize.ShloMosaic.TcCoe Idealize.ShloMosaic.ValueIdx Idealize.SL.Sem
open Cert.KernelIdeal Cert.KernelIdeal.Gen

theorem zero_offsets : (![0, 0] : Fin 2 → Nat) = fun _ => 0 := funext fun a => by fin_cases a <;> rfl

/-- The result array of region 0 as one function of the arrays the region finds (`V`): the clamped linear step. -/
def G0 (V : (c : Dev nD) → (b : Ref sig .tc) → Buf (Elt Ideal) ((c : Thread nD τ).loc b)) (c : Dev nD) :
    FVec Ideal S20000x128 .f32 :=
  linRelu (n := 20000) (V c main_v25) (V c main_v6) (V c main_arg5) (V c main_arg6) (fun q => V c main_v26 (ix2 (0 : Fin 1) q))

/-- The block index maps over the grid: the two row-blocked inputs move with the output's row block, the weights and
    the bias stay at block (0, 0), and the output's row block index is the point's number. -/
theorem idx_facts0 : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 1 :=
  (by decide +kernel : ∀ t : Fin grid0.N, _)

/-- Every row block of the result is some point's. -/
theorem idx_onto0 : ∀ q0 : Fin 2, ∃ t : Fin cfg0.N, win0_5.index t = ![q0.val, 0] :=
  (by decide +kernel : ∀ q0 : Fin 2, ∃ t : Fin grid0.N, win0_5.index t = ![q0.val, 0])

/-- What point `t` writes back is block `t` of `G0`. -/
theorem flushed0 (V : (c : Dev nD) → (b : Ref sig .tc) → Buf (Elt Ideal) ((c : Thread nD τ).loc b)) (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero zero_offsets]
  simp only [View.ld_unit_zero (S := S10000x128) zero_offsets, View.ld_unit_zero (S := S128x128) zero_offsets,
    View.ld_unit_zero (S := S1x128) zero_offsets]
  obtain ⟨e00, e01, e10, e11, e20, e21, e30, e31, e40, e41, e51, -⟩ := idx_facts0 t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
      = max (linAt (n := 20000) (V c main_v25) (V c main_v6) (V c main_arg5) (V c main_arg6) (fun q => V c main_v26 (ix2 (0 : Fin 1) q))
          ((((cfg0.win 5).blk t).view.emb (ix2 p q)) 0) ((((cfg0.win 5).blk t).view.emb (ix2 p q)) 1))
        (FloatOps.ofBits (F := Ideal) .f32 0x00000000#32)
  refine (pay0_apply (iblk0 V c 0 t) (iblk0 V c 1 t) (iblk0 V c 2 t) (iblk0 V c 3 t) (iblk0 V c 4 t) p q).trans ?_
  refine congrArg₂ max ?_ rfl
  refine linAt_congr (n := 10000) (n' := 20000) (iblk0 V c 0 t) (iblk0 V c 1 t) (V c main_v25) (V c main_v6)
    (iblk0 V c 2 t) (iblk0 V c 3 t) (V c main_arg5) (V c main_arg6) _ _ p _ q _
    (fun k => ?_) (fun k => ?_) (fun k => ?_) (fun k => ?_) ?_
  · show V c main_v25 (((cfg0.win 0).blk t).view.emb (ix2 p k)) = _
    refine congrArg (V c main_v25) ?_
    funext a; apply Fin.ext
    match a with
    | ⟨0, _⟩ => show win0_0.index t (0 : Fin 2) * 10000 + 1 * p.val = win0_5.index t (0 : Fin 2) * 10000 + 1 * p.val; omega
    | ⟨1, _⟩ => show win0_0.index t (1 : Fin 2) * 128 + 1 * k.val = k.val; omega
  · show V c main_v6 (((cfg0.win 1).blk t).view.emb (ix2 p k)) = _
    refine congrArg (V c main_v6) ?_
    funext a; apply Fin.ext
    match a with
    | ⟨0, _⟩ => show win0_1.index t (0 : Fin 2) * 10000 + 1 * p.val = win0_5.index t (0 : Fin 2) * 10000 + 1 * p.val; omega
    | ⟨1, _⟩ => show win0_1.index t (1 : Fin 2) * 128 + 1 * k.val = k.val; omega
  · show V c main_arg5 (((cfg0.win 2).blk t).view.emb (ix2 k q)) = _
    refine congrArg (V c main_arg5) ?_
    funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · show V c main_arg6 (((cfg0.win 3).blk t).view.emb (ix2 k q)) = _
    refine congrArg (V c main_arg6) ?_
    funext a; apply Fin.ext
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_v26 (((cfg0.win 4).blk t).view.emb (ix2 (0 : Fin 1) q)) = _
    refine congrArg (V c main_v26) ?_
    funext a; apply Fin.ext
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the result is in point `t`'s block iff each coordinate is in the block's range on its axis. -/
theorem mem_blk0 (t : Fin cfg0.N) (i : S20000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v27).slice (win0_5.rect t)).set ↔ _
  rw [View.set_slice_whole, Rect.mem_set_unit]
  exact Iff.rfl

/-- The two row blocks tile the result: row `r` is in the block of point `r / 10000`. -/
theorem cover0 (i : S20000x128.Idx) :
    ∃ t : Fin cfg0.N, (cfg0.win 5).flush t = true ∧ i ∈ ((cfg0.win 5).blk t).view.set := by
  have hi0 : (i 0).val < 20000 := (i 0).isLt
  have hi1 : (i 1).val < 128 := (i 1).isLt
  obtain ⟨t, ht⟩ := idx_onto0 ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- THE RESULT ARRAY of region 0 after its last point: `G0` of the arrays the region finds. -/
theorem final0 (V : (c : Dev nD) → (b : Ref sig .tc) → Buf (Elt Ideal) ((c : Thread nD τ).loc b)) (c : Dev nD) :
    (dat0 (F := Ideal) V c).arrAt 5 cfg0.N = G0 V c :=
  (dat0 (F := Ideal) V c).arrAt_eq_of_cover 5 (G0 V c) (fun t _ => flushed0 V c t) cover0

end Cert.Sage

end
-- ==== Proof.SageRegion1.lean ====
/-
  REGION 1 (the song side of the first layer), read as a whole array, exactly as region 0 is: the grid has ten
  points; point `t` fetches rows `10000 t … 10000 t + 9999` of the aggregated messages and of the destination features, the
  two whole weight matrices and the whole bias row, and writes back the same rows of the result — the linear step of the
  fetched blocks clamped at zero. A row of a fetched block is that row of the array, so every point writes its rows of one
  whole-array function of the arrays the region finds, and the ten blocks tile the `[100000, 128]` result.
-/
import proofs.«137762_j29463475650789_1_alg».proof.Proof.Gen.KernelIdeal.Frame
import proofs.«137762_j29463475650789_1_alg».proof.Proof.SagePayload
import proofs.«137762_j29463475650789_1_alg».proof.Proof.SageRegion0
import Idealize.ShloMosaic.Lib.Pipeline.Value

set_option maxRecDepth 16384

noncomputable section

namespace Cert.Sage

open Idealize.ShloMosaic Idealize.ShloMosaic.TcCoe Idealize.ShloMosaic.ValueIdx Idealize.SL.Sem
open Cert.KernelIdeal Cert.KernelIdeal.Gen

/-- The result array of region 1 as one function of the arrays the region finds (`V`): the clamped linear step. -/
def G1 (V : (c : Dev nD) → (b : Ref sig .tc) → Buf (Elt Ideal) ((c : Thread nD τ).loc b)) (c : Dev nD) :
    FVec Ideal S100000x128 .f32 :=
  linRelu (n := 100000) (V c main_v46) (V c main_arg0) (V c main_arg8) (V c main_arg9) (fun q => V c main_v47 (ix2 (0 : Fin 1) q))

/-- The block index maps over the grid: the two row-blocked inputs move with the output's row block, the weights and
    the bias stay at block (0, 0), and the output's row block index is the point's number. -/
theorem idx_facts1 : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 9 :=
  (by decide +kernel : ∀ t : Fin grid1.N, _)

/-- Every row block of the result is some point's. -/
theorem idx_onto1 : ∀ q0 : Fin 10, ∃ t : Fin cfg1.N, win1_5.index t = ![q0.val, 0] :=
  (by decide +kernel : ∀ q0 : Fin 10, ∃ t : Fin grid1.N, win1_5.index t = ![q0.val, 0])

/-- What point `t` writes back is block `t` of `G1`. -/
theorem flushed1 (V : (c : Dev nD) → (b : Ref sig .tc) → Buf (Elt Ideal) ((c : Thread nD τ).loc b)) (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero zero_offsets]
  simp only [View.ld_unit_zero (S := S10000x128) zero_offsets, View.ld_unit_zero (S := S128x128) zero_offsets,
    View.ld_unit_zero (S := S1x128) zero_offsets]
  obtain ⟨e00, e01, e10, e11, e20, e21, e30, e31, e40, e41, e51, -⟩ := idx_facts1 t
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
      = max (linAt (n := 100000) (V c main_v46) (V c main_arg0) (V c main_arg8) (V c main_arg9) (fun q => V c main_v47 (ix2 (0 : Fin 1) q))
          ((((cfg1.win 5).blk t).view.emb (ix2 p q)) 0) ((((cfg1.win 5).blk t).view.emb (ix2 p q)) 1))
        (FloatOps.ofBits (F := Ideal) .f32 0x00000000#32)
  refine (pay1_apply (iblk1 V c 0 t) (iblk1 V c 1 t) (iblk1 V c 2 t) (iblk1 V c 3 t) (iblk1 V c 4 t) p q).trans ?_
  refine congrArg₂ max ?_ rfl
  refine linAt_congr (n := 10000) (n' := 100000) (iblk1 V c 0 t) (iblk1 V c 1 t) (V c main_v46) (V c main_arg0)
    (iblk1 V c 2 t) (iblk1 V c 3 t) (V c main_arg8) (V c main_arg9) _ _ p _ q _
    (fun k => ?_) (fun k => ?_) (fun k => ?_) (fun k => ?_) ?_
  · show V c main_v46 (((cfg1.win 0).blk t).view.emb (ix2 p k)) = _
    refine congrArg (V c main_v46) ?_
    funext a; apply Fin.ext
    match a with
    | ⟨0, _⟩ => show win1_0.index t (0 : Fin 2) * 10000 + 1 * p.val = win1_5.index t (0 : Fin 2) * 10000 + 1 * p.val; omega
    | ⟨1, _⟩ => show win1_0.index t (1 : Fin 2) * 128 + 1 * k.val = k.val; omega
  · show V c main_arg0 (((cfg1.win 1).blk t).view.emb (ix2 p k)) = _
    refine congrArg (V c main_arg0) ?_
    funext a; apply Fin.ext
    match a with
    | ⟨0, _⟩ => show win1_1.index t (0 : Fin 2) * 10000 + 1 * p.val = win1_5.index t (0 : Fin 2) * 10000 + 1 * p.val; omega
    | ⟨1, _⟩ => show win1_1.index t (1 : Fin 2) * 128 + 1 * k.val = k.val; omega
  · show V c main_arg8 (((cfg1.win 2).blk t).view.emb (ix2 k q)) = _
    refine congrArg (V c main_arg8) ?_
    funext a; apply Fin.ext
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · show V c main_arg9 (((cfg1.win 3).blk t).view.emb (ix2 k q)) = _
    refine congrArg (V c main_arg9) ?_
    funext a; apply Fin.ext
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  · show V c main_v47 (((cfg1.win 4).blk t).view.emb (ix2 (0 : Fin 1) q)) = _
    refine congrArg (V c main_v47) ?_
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the result is in point `t`'s block iff each coordinate is in the block's range on its axis. -/
theorem mem_blk1 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v48).slice (win1_5.rect t)).set ↔ _
  rw [View.set_slice_whole, Rect.mem_set_unit]
  exact Iff.rfl

/-- The ten row blocks tile the result: row `r` is in the block of point `r / 10000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- THE RESULT ARRAY of region 1 after its last point: `G1` of the arrays the region finds. -/
theorem final1 (V : (c : Dev nD) → (b : Ref sig .tc) → Buf (Elt Ideal) ((c : Thread nD τ).loc b)) (c : Dev nD) :
    (dat1 (F := Ideal) V c).arrAt 5 cfg1.N = G1 V c :=
  (dat1 (F := Ideal) V c).arrAt_eq_of_cover 5 (G1 V c) (fun t _ => flushed1 V c t) cover1

end Cert.Sage

end
-- ==== Proof.SageRegion2.lean ====
/-
  REGION 2 (the playlist side of the second layer), read as a whole array, exactly as region 0 is: the grid has two
  points; point `t` fetches rows `10000 t … 10000 t + 9999` of the aggregated messages and of the destination features, the
  two whole weight matrices and the whole bias row, and writes back the same rows of the result — the linear step of the
  fetched blocks. A row of a fetched block is that row of the array, so every point writes its rows of one
  whole-array function of the arrays the region finds, and the two blocks tile the `[20000, 128]` result.
-/
import proofs.«137762_j29463475650789_1_alg».proof.Proof.Gen.KernelIdeal.Frame
import proofs.«137762_j29463475650789_1_alg».proof.Proof.SagePayload
import proofs.«137762_j29463475650789_1_alg».proof.Proof.SageRegion0
import Idealize.ShloMosaic.Lib.Pipeline.Value

set_option maxRecDepth 16384

noncomputable section

namespace Cert.Sage

open Idealize.ShloMosaic Idealize.ShloMosaic.TcCoe Idealize.ShloMosaic.ValueIdx Idealize.SL.Sem
open Cert.KernelIdeal Cert.KernelIdeal.Gen

/-- The result array of region 2 as one function of the arrays the region finds (`V`): the linear step. -/
def G2 (V : (c : Dev nD) → (b : Ref sig .tc) → Buf (Elt Ideal) ((c : Thread nD τ).loc b)) (c : Dev nD) :
    FVec Ideal S20000x128 .f32 :=
  lin (n := 20000) (V c main_v67) (V c main_v27) (V c main_arg11) (V c main_arg12) (fun q => V c main_v68 (ix2 (0 : Fin 1) q))

/-- The block index maps over the grid: the two row-blocked inputs move with the output's row block, the weights and
    the bias stay at block (0, 0), and the output's row block index is the point's number. -/
theorem idx_facts2 : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 1 :=
  (by decide +kernel : ∀ t : Fin grid2.N, _)

/-- Every row block of the result is some point's. -/
theorem idx_onto2 : ∀ q0 : Fin 2, ∃ t : Fin cfg2.N, win2_5.index t = ![q0.val, 0] :=
  (by decide +kernel : ∀ q0 : Fin 2, ∃ t : Fin grid2.N, win2_5.index t = ![q0.val, 0])

/-- What point `t` writes back is block `t` of `G2`. -/
theorem flushed2 (V : (c : Dev nD) → (b : Ref sig .tc) → Buf (Elt Ideal) ((c : Thread nD τ).loc b)) (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero zero_offsets]
  simp only [View.ld_unit_zero (S := S10000x128) zero_offsets, View.ld_unit_zero (S := S128x128) zero_offsets,
    View.ld_unit_zero (S := S1x128) zero_offsets]
  obtain ⟨e00, e01, e10, e11, e20, e21, e30, e31, e40, e41, e51, -⟩ := idx_facts2 t
  funext j
  obtain ⟨p, q, rfl⟩ : ∃ (p : Fin 10000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
      = linAt (n := 20000) (V c main_v67) (V c main_v27) (V c main_arg11) (V c main_arg12) (fun q => V c main_v68 (ix2 (0 : Fin 1) q))
          ((((cfg2.win 5).blk t).view.emb (ix2 p q)) 0) ((((cfg2.win 5).blk t).view.emb (ix2 p q)) 1)
  refine (pay2_apply (iblk2 V c 0 t) (iblk2 V c 1 t) (iblk2 V c 2 t) (iblk2 V c 3 t) (iblk2 V c 4 t) p q).trans ?_
  refine linAt_congr (n := 10000) (n' := 20000) (iblk2 V c 0 t) (iblk2 V c 1 t) (V c main_v67) (V c main_v27)
    (iblk2 V c 2 t) (iblk2 V c 3 t) (V c main_arg11) (V c main_arg12) _ _ p _ q _
    (fun k => ?_) (fun k => ?_) (fun k => ?_) (fun k => ?_) ?_
  · show V c main_v67 (((cfg2.win 0).blk t).view.emb (ix2 p k)) = _
    refine congrArg (V c main_v67) ?_
    funext a; apply Fin.ext
    match a with
    | ⟨0, _⟩ => show win2_0.index t (0 : Fin 2) * 10000 + 1 * p.val = win2_5.index t (0 : Fin 2) * 10000 + 1 * p.val; omega
    | ⟨1, _⟩ => show win2_0.index t (1 : Fin 2) * 128 + 1 * k.val = k.val; omega
  · show V c main_v27 (((cfg2.win 1).blk t).view.emb (ix2 p k)) = _
    refine congrArg (V c main_v27) ?_
    funext a; apply Fin.ext
    match a with
    | ⟨0, _⟩ => show win2_1.index t (0 : Fin 2) * 10000 + 1 * p.val = win2_5.index t (0 : Fin 2) * 10000 + 1 * p.val; omega
    | ⟨1, _⟩ => show win2_1.index t (1 : Fin 2) * 128 + 1 * k.val = k.val; omega
  · show V c main_arg11 (((cfg2.win 2).blk t).view.emb (ix2 k q)) = _
    refine congrArg (V c main_arg11) ?_
    funext a; apply Fin.ext
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  · show V c main_arg12 (((cfg2.win 3).blk t).view.emb (ix2 k q)) = _
    refine congrArg (V c main_arg12) ?_
    funext a; apply Fin.ext
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  · show V c main_v68 (((cfg2.win 4).blk t).view.emb (ix2 (0 : Fin 1) q)) = _
    refine congrArg (V c main_v68) ?_
    funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega

/-- An index of the result is in point `t`'s block iff each coordinate is in the block's range on its axis. -/
theorem mem_blk2 (t : Fin cfg2.N) (i : S20000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v69).slice (win2_5.rect t)).set ↔ _
  rw [View.set_slice_whole, Rect.mem_set_unit]
  exact Iff.rfl

/-- The two row blocks tile the result: row `r` is in the block of point `r / 10000`. -/
theorem cover2 (i : S20000x128.Idx) :
    ∃ t : Fin cfg2.N, (cfg2.win 5).flush t = true ∧ i ∈ ((cfg2.win 5).blk t).view.set := by
  have hi0 : (i 0).val < 20000 := (i 0).isLt
  have hi1 : (i 1).val < 128 := (i 1).isLt
  obtain ⟨t, ht⟩ := idx_onto2 ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- THE RESULT ARRAY of region 2 after its last point: `G2` of the arrays the region finds. -/
theorem final2 (V : (c : Dev nD) → (b : Ref sig .tc) → Buf (Elt Ideal) ((c : Thread nD τ).loc b)) (c : Dev nD) :
    (dat2 (F := Ideal) V c).arrAt 5 cfg2.N = G2 V c :=
  (dat2 (F := Ideal) V c).arrAt_eq_of_cover 5 (G2 V c) (fun t _ => flushed2 V c t) cover2

end Cert.Sage

end
-- ==== Proof.SageRegion3.lean ====
/-
  REGION 3 (the song side of the second layer), read as a whole array, exactly as region 0 is: the grid has ten
  points; point `t` fetches rows `10000 t … 10000 t + 9999` of the aggregated messages and of the destination features, the
  two whole weight matrices and the whole bias row, and writes back the same rows of the result — the linear step of the
  fetched blocks. A row of a fetched block is that row of the array, so every point writes its rows of one
  whole-array function of the arrays the region finds, and the ten blocks tile the `[100000, 128]` result.
-/
import proofs.«137762_j29463475650789_1_alg».proof.Proof.Gen.KernelIdeal.Frame
import proofs.«137762_j29463475650789_1_alg».proof.Proof.SagePayload
import proofs.«137762_j29463475650789_1_alg».proof.Proof.SageRegion0
import Idealize.ShloMosaic.Lib.Pipeline.Value

set_option maxRecDepth 16384

noncomputable section

namespace Cert.Sage

open Idealize.ShloMosaic Idealize.ShloMosaic.TcCoe Idealize.ShloMosaic.ValueIdx Idealize.SL.Sem
open Cert.KernelIdeal Cert.KernelIdeal.Gen

/-- The result array of region 3 as one function of the arrays the region finds (`V`): the linear step. -/
def G3 (V : (c : Dev nD) → (b : Ref sig .tc) → Buf (Elt Ideal) ((c : Thread nD τ).loc b)) (c : Dev nD) :
    FVec Ideal S100000x128 .f32 :=
  lin (n := 100000) (V c main_v88) (V c main_v48) (V c main_arg14) (V c main_arg15) (fun q => V c main_v89 (ix2 (0 : Fin 1) q))

/-- The block index maps over the grid: the two row-blocked inputs move with the output's row block, the weights and
    the bias stay at block (0, 0), and the output's row block index is the point's number. -/
theorem idx_facts3 : ∀ t : Fin cfg3.N, win3_0.index t (0 : Fin 2) = win3_5.index t (0 : Fin 2)
    ∧ win3_0.index t (1 : Fin 2) = 0
    ∧ win3_1.index t (0 : Fin 2) = win3_5.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) ≤ 9 :=
  (by decide +kernel : ∀ t : Fin grid3.N, _)

/-- Every row block of the result is some point's. -/
theorem idx_onto3 : ∀ q0 : Fin 10, ∃ t : Fin cfg3.N, win3_5.index t = ![q0.val, 0] :=
  (by decide +kernel : ∀ q0 : Fin 10, ∃ t : Fin grid3.N, win3_5.index t = ![q0.val, 0])

/-- What point `t` writes back is block `t` of `G3`. -/
theorem flushed3 (V : (c : Dev nD) → (b : Ref sig .tc) → Buf (Elt Ideal) ((c : Thread nD τ).loc b)) (c : Dev nD) (t : Fin cfg3.N) :
    (dat3 (F := Ideal) V c).flushed 5 t = ((cfg3.win 5).blk t).view.read (Elt Ideal) (G3 V c) := by
  show (cfg3.win 5).cut (grid3.coords t) ((dat3 (F := Ideal) V c).after 5 t) = _
  rw [after3_5]
  unfold out3_5
  rw [View.canon_unit_zero zero_offsets]
  simp only [View.ld_unit_zero (S := S10000x128) zero_offsets, View.ld_unit_zero (S := S128x128) zero_offsets,
    View.ld_unit_zero (S := S1x128) zero_offsets]
  obtain ⟨e00, e01, e10, e11, e20, e21, e30, e31, e40, e41, e51, -⟩ := idx_facts3 t
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
      = linAt (n := 100000) (V c main_v88) (V c main_v48) (V c main_arg14) (V c main_arg15) (fun q => V c main_v89 (ix2 (0 : Fin 1) q))
          ((((cfg3.win 5).blk t).view.emb (ix2 p q)) 0) ((((cfg3.win 5).blk t).view.emb (ix2 p q)) 1)
  refine (pay3_apply (iblk3 V c 0 t) (iblk3 V c 1 t) (iblk3 V c 2 t) (iblk3 V c 3 t) (iblk3 V c 4 t) p q).trans ?_
  refine linAt_congr (n := 10000) (n' := 100000) (iblk3 V c 0 t) (iblk3 V c 1 t) (V c main_v88) (V c main_v48)
    (iblk3 V c 2 t) (iblk3 V c 3 t) (V c main_arg14) (V c main_arg15) _ _ p _ q _
    (fun k => ?_) (fun k => ?_) (fun k => ?_) (fun k => ?_) ?_
  · show V c main_v88 (((cfg3.win 0).blk t).view.emb (ix2 p k)) = _
    refine congrArg (V c main_v88) ?_
    funext a; apply Fin.ext
    match a with
    | ⟨0, _⟩ => show win3_0.index t (0 : Fin 2) * 10000 + 1 * p.val = win3_5.index t (0 : Fin 2) * 10000 + 1 * p.val; omega
    | ⟨1, _⟩ => show win3_0.index t (1 : Fin 2) * 128 + 1 * k.val = k.val; omega
  · show V c main_v48 (((cfg3.win 1).blk t).view.emb (ix2 p k)) = _
    refine congrArg (V c main_v48) ?_
    funext a; apply Fin.ext
    match a with
    | ⟨0, _⟩ => show win3_1.index t (0 : Fin 2) * 10000 + 1 * p.val = win3_5.index t (0 : Fin 2) * 10000 + 1 * p.val; omega
    | ⟨1, _⟩ => show win3_1.index t (1 : Fin 2) * 128 + 1 * k.val = k.val; omega
  · show V c main_arg14 (((cfg3.win 2).blk t).view.emb (ix2 k q)) = _
    refine congrArg (V c main_arg14) ?_
    funext a; apply Fin.ext
    match a with
    | ⟨0, _⟩ => show win3_2.index t (0 : Fin 2) * 128 + 1 * k.val = k.val; omega
    | ⟨1, _⟩ => show win3_2.index t (1 : Fin 2) * 128 + 1 * q.val = win3_5.index t (1 : Fin 2) * 128 + 1 * q.val; omega
  · show V c main_arg15 (((cfg3.win 3).blk t).view.emb (ix2 k q)) = _
    refine congrArg (V c main_arg15) ?_
    funext a; apply Fin.ext
    match a with
    | ⟨0, _⟩ => show win3_3.index t (0 : Fin 2) * 128 + 1 * k.val = k.val; omega
    | ⟨1, _⟩ => show win3_3.index t (1 : Fin 2) * 128 + 1 * q.val = win3_5.index t (1 : Fin 2) * 128 + 1 * q.val; omega
  · show V c main_v89 (((cfg3.win 4).blk t).view.emb (ix2 (0 : Fin 1) q)) = _
    refine congrArg (V c main_v89) ?_
    funext a; apply Fin.ext
    match a with
    | ⟨0, _⟩ => show win3_4.index t (0 : Fin 2) * 1 + 1 * 0 = 0; omega
    | ⟨1, _⟩ => show win3_4.index t (1 : Fin 2) * 128 + 1 * q.val = win3_5.index t (1 : Fin 2) * 128 + 1 * q.val; omega

/-- An index of the result is in point `t`'s block iff each coordinate is in the block's range on its axis. -/
theorem mem_blk3 (t : Fin cfg3.N) (i : S100000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v90).slice (win3_5.rect t)).set ↔ _
  rw [View.set_slice_whole, Rect.mem_set_unit]
  exact Iff.rfl

/-- The ten row blocks tile the result: row `r` is in the block of point `r / 10000`. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := idx_onto3 ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 128 ≤ (i 1).val ∧ (i 1).val < win3_5.index t (1 : Fin 2) * 128 + 128; omega

/-- THE RESULT ARRAY of region 3 after its last point: `G3` of the arrays the region finds. -/
theorem final3 (V : (c : Dev nD) → (b : Ref sig .tc) → Buf (Elt Ideal) ((c : Thread nD τ).loc b)) (c : Dev nD) :
    (dat3 (F := Ideal) V c).arrAt 5 cfg3.N = G3 V c :=
  (dat3 (F := Ideal) V c).arrAt_eq_of_cover 5 (G3 V c) (fun t _ => flushed3 V c t) cover3

end Cert.Sage

end
-- ==== Proof.SageHost.lean ====
/-
  The host-side pieces both programs share, as functions of the arrays they depend on (exact values throughout).
  * `featureRows tbl ids`: the rows of the `[20000, 128]` table `tbl` picked by the `[20000]` index vector `ids`
    (a negative index wrapped once by the table's height first).
  * `meanToPlaylists x src dst`: for every playlist, the mean of the rows `x (src e)` over the edges `e` with
    `dst e` that playlist — the rows of the `[100000, 128]` array `x` gathered by `src`, scatter-added into
    `[20000, 128]` zeros by `dst`, divided row by row by the larger of the edge count and one.
  * `meanToSongs x src dst`: the same from a `[20000, 128]` array into `[100000, 128]`.
  * `biasRow b`: a `[128]` bias as a `[1, 128]` row.
  Nothing here is ever evaluated: the two programs apply these same operations to arrays that are shown equal.
-/
import proofs.«137762_j29463475650789_1_alg».proof.Proof.Gen.KernelIdeal
import Idealize.ShloMosaic.Lib.ValueIdx
import Idealize.ShloMosaic.Lib.ValueLayout

noncomputable section

namespace Cert.Sage

open Idealize.ShloMosaic Idealize.ShloMosaic.ValueIdx Idealize.SL.Sem
open Cert.KernelIdeal Cert.KernelIdeal.Gen

/-- The rows of `tbl` picked by `ids`. -/
def featureRows (tbl : (⟨S20000x128, .f32⟩ : BufTy).Contents (Elt Ideal)) (ids : (⟨S20000, .i32⟩ : BufTy).Contents (Elt Ideal)) :
    (⟨S20000x128, .f32⟩ : BufTy).Contents (Elt Ideal) :=
  Host.gather gather_S20000x128_S20000x1_S20000x128_1_0_n_n_0_1_1128 tbl
    (broadcastInDim S20000x1 ![0] bcast_S20000_S20000x1_0
      (select (cmpi .slt ids (broadcastInDim S20000 ![] bcast_S_S20000 (constantI S_ 32 0#32)))
        (addi ids (broadcastInDim S20000 ![] bcast_S_S20000 (constantI S_ 32 20000#32))) ids))

/-- Per playlist, the mean over its edges of the song rows of `x`. -/
def meanToPlaylists (x : (⟨S100000x128, .f32⟩ : BufTy).Contents (Elt Ideal)) (src dst : (⟨S500000, .i32⟩ : BufTy).Contents (Elt Ideal)) :
    (⟨S20000x128, .f32⟩ : BufTy).Contents (Elt Ideal) :=
  Host.divf
    (Host.scatterAdd scatter_S20000x128_S500000x1_S500000x128_1_0_0_1
      (broadcastInDim S20000x128 ![] bcast_S_S20000x128 (constant (F := Ideal) S_ .f32 0x00000000#32))
      (broadcastInDim S500000x1 ![0] bcast_S500000_S500000x1_0 dst)
      (Host.gather gather_S100000x128_S500000x1_S500000x128_1_0_n_n_0_1_1128 x
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 100000#32))) src))))
    (broadcastInDim S20000x128 ![0, 1] bcast_S20000x1_S20000x128_0_1
      (broadcastInDim S20000x1 ![0] bcast_S20000_S20000x1_0
        (maximumf
          (Host.scatterAdd scatter_S20000_S500000x1_S500000_n_0_0_1
            (broadcastInDim S20000 ![] bcast_S_S20000 (constant (F := Ideal) S_ .f32 0x00000000#32))
            (broadcastInDim S500000x1 ![0] bcast_S500000_S500000x1_0 dst)
            (broadcastInDim S500000 ![] bcast_S_S500000 (constant (F := Ideal) S_ .f32 0x3F800000#32)))
          (broadcastInDim S20000 ![] bcast_S_S20000 (constant (F := Ideal) S_ .f32 0x3F800000#32)))))

/-- Per song, the mean over its edges of the playlist rows of `x`. -/
def meanToSongs (x : (⟨S20000x128, .f32⟩ : BufTy).Contents (Elt Ideal)) (src dst : (⟨S500000, .i32⟩ : BufTy).Contents (Elt Ideal)) :
    (⟨S100000x128, .f32⟩ : BufTy).Contents (Elt Ideal) :=
  Host.divf
    (Host.scatterAdd scatter_S100000x128_S500000x1_S500000x128_1_0_0_1
      (broadcastInDim S100000x128 ![] bcast_S_S100000x128 (constant (F := Ideal) S_ .f32 0x00000000#32))
      (broadcastInDim S500000x1 ![0] bcast_S500000_S500000x1_0 dst)
      (Host.gather gather_S20000x128_S500000x1_S500000x128_1_0_n_n_0_1_1128 x
        (broadcastInDim S500000x1 ![0] bcast_S500000_S500000x1_0
          (select (cmpi .slt src (broadcastInDim S500000 ![] bcast_S_S500000 (constantI S_ 32 0#32)))
            (addi src (broadcastInDim S500000 ![] bcast_S_S500000 (constantI S_ 32 20000#32))) src))))
    (broadcastInDim S100000x128 ![0, 1] bcast_S100000x1_S100000x128_0_1
      (broadcastInDim S100000x1 ![0] bcast_S100000_S100000x1_0
        (maximumf
          (Host.scatterAdd scatter_S100000_S500000x1_S500000_n_0_0_1
            (broadcastInDim S100000 ![] bcast_S_S100000 (constant (F := Ideal) S_ .f32 0x00000000#32))
            (broadcastInDim S500000x1 ![0] bcast_S500000_S500000x1_0 dst)
            (broadcastInDim S500000 ![] bcast_S_S500000 (constant (F := Ideal) S_ .f32 0x3F800000#32)))
          (broadcastInDim S100000 ![] bcast_S_S100000 (constant (F := Ideal) S_ .f32 0x3F800000#32)))))

/-- A `[128]` bias as a `[1, 128]` row. -/
def biasRow (b : (⟨S128, .f32⟩ : BufTy).Contents (Elt Ideal)) : (⟨S1x128, .f32⟩ : BufTy).Contents (Elt Ideal) :=
  fun i => shapeCast S1x128 b shapeCasts_S128_S1x128 i

/-- Entry `(0, q)` of the bias row is entry `q` of the bias. -/
theorem biasRow_apply (b : (⟨S128, .f32⟩ : BufTy).Contents (Elt Ideal)) (q : Fin 128) :
    biasRow b (ix2 (0 : Fin 1) q) = b (ix1 q) :=
  shapeCast_a_1a_apply b shapeCasts_S128_S1x128 0 q

end Cert.Sage

end
-- ==== Proof.SageChain.lean ====
/-
  The idealized kernel's two results as closed functions of the argument arrays. @main alternates four stretches of host
  operations with four kernel regions; the buffer contents at the eight boundaries are a fold from the launch memory.
  A stretch computes, in the buffers the next region reads, the mean-aggregated messages (a gather of the source rows, a
  scatter-add by destination, a division by the clamped edge count) and the bias as a row, and leaves every other
  buffer alone; a region replaces its result array by the linear step of the arrays it finds (the region modules) and
  leaves every other buffer alone. Walking the fold: the first layer's playlist rows `p1` and song rows `s1` are the
  clamped linear steps of the aggregated input features; the second layer's `p2`, `s2` are the linear steps of the
  aggregated first-layer rows. The host operations are never opened: they are the shared terms of `SageHost`.
-/
import proofs.«137762_j29463475650789_1_alg».proof.Proof.Gen.KernelIdeal.Frame
import proofs.«137762_j29463475650789_1_alg».proof.Proof.SageRegion1
import proofs.«137762_j29463475650789_1_alg».proof.Proof.SageRegion2
import proofs.«137762_j29463475650789_1_alg».proof.Proof.SageRegion3
import proofs.«137762_j29463475650789_1_alg».proof.Proof.SageHost
import Idealize.ShloMosaic.Lib.StableHlo.Run

set_option maxRecDepth 16384

noncomputable section

namespace Cert.Sage

open Idealize.ShloMosaic Idealize.ShloMosaic.TcCoe Idealize.ShloMosaic.ValueIdx Idealize.SL.Sem
open Cert.KernelIdeal Cert.KernelIdeal.Gen

/-! ## What each stretch writes, and what it therefore leaves alone -/

/-- The references the operations of stretch 0 write. -/
abbrev written0 : List (Ref sig .tc) := [main_c, main_v0, main_v1, main_c_0, main_v2, main_v3, main_v4, main_v5, main_v6, main_c_1, main_v7, main_v8, main_c_2, main_v9, main_v10, main_v11, main_v12, main_v13, main_cst, main_v14, main_v15, main_v16, main_cst_3, main_v17, main_cst_4, main_v18, main_v19, main_v20, main_cst_5, main_v21, main_v22, main_v23, main_v24, main_v25, main_v26]
theorem writes0 : (hostOps0 : List (HloOp τ sig (Elt Ideal))).Forall fun op => op.writes ⊆ (written0.map (Proc.devRef (τ := τ) .tc)).toFinset := by
  simp only [hostOps0, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 0 does not write keeps its contents through it. -/
theorem keep0 (V : Valuation τ sig (Elt Ideal)) (r : Ref sig .tc) (h : r ∉ written0) :
    StableHlo.after hostOps0 V (Proc.devRef .tc r) = V (Proc.devRef .tc r) :=
  StableHlo.after_of_writes_sub hostOps0 V writes0 h

/-- The references the operations of stretch 1 write. -/
abbrev written1 : List (Ref sig .tc) := [main_c_6, main_v28, main_v29, main_c_7, main_v30, main_v31, main_v32, main_v33, main_v34, main_cst_8, main_v35, main_v36, main_v37, main_cst_9, main_v38, main_cst_10, main_v39, main_v40, main_v41, main_cst_11, main_v42, main_v43, main_v44, main_v45, main_v46, main_v47]
theorem writes1 : (hostOps1 : List (HloOp τ sig (Elt Ideal))).Forall fun op => op.writes ⊆ (written1.map (Proc.devRef (τ := τ) .tc)).toFinset := by
  simp only [hostOps1, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 1 does not write keeps its contents through it. -/
theorem keep1 (V : Valuation τ sig (Elt Ideal)) (r : Ref sig .tc) (h : r ∉ written1) :
    StableHlo.after hostOps1 V (Proc.devRef .tc r) = V (Proc.devRef .tc r) :=
  StableHlo.after_of_writes_sub hostOps1 V writes1 h

/-- The references the operations of stretch 2 write. -/
abbrev written2 : List (Ref sig .tc) := [main_c_12, main_v49, main_v50, main_c_13, main_v51, main_v52, main_v53, main_v54, main_v55, main_cst_14, main_v56, main_v57, main_v58, main_cst_15, main_v59, main_cst_16, main_v60, main_v61, main_v62, main_cst_17, main_v63, main_v64, main_v65, main_v66, main_v67, main_v68]
theorem writes2 : (hostOps2 : List (HloOp τ sig (Elt Ideal))).Forall fun op => op.writes ⊆ (written2.map (Proc.devRef (τ := τ) .tc)).toFinset := by
  simp only [hostOps2, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 2 does not write keeps its contents through it. -/
theorem keep2 (V : Valuation τ sig (Elt Ideal)) (r : Ref sig .tc) (h : r ∉ written2) :
    StableHlo.after hostOps2 V (Proc.devRef .tc r) = V (Proc.devRef .tc r) :=
  StableHlo.after_of_writes_sub hostOps2 V writes2 h

/-- The references the operations of stretch 3 write. -/
abbrev written3 : List (Ref sig .tc) := [main_c_18, main_v70, main_v71, main_c_19, main_v72, main_v73, main_v74, main_v75, main_v76, main_cst_20, main_v77, main_v78, main_v79, main_cst_21, main_v80, main_cst_22, main_v81, main_v82, main_v83, main_cst_23, main_v84, main_v85, main_v86, main_v87, main_v88, main_v89]
theorem writes3 : (hostOps3 : List (HloOp τ sig (Elt Ideal))).Forall fun op => op.writes ⊆ (written3.map (Proc.devRef (τ := τ) .tc)).toFinset := by
  simp only [hostOps3, List.Forall]
  repeat' apply And.intro
  all_goals (simp only [StableHlo.nullary_writes, StableHlo.unary_writes, StableHlo.binary_writes, StableHlo.ternary_writes, StableHlo.quaternary_writes, StableHlo.reshape_writes, Finset.singleton_subset_iff, List.mem_toFinset]; exact List.mem_map_of_mem (by decide))
/-- A buffer stretch 3 does not write keeps its contents through it. -/
theorem keep3 (V : Valuation τ sig (Elt Ideal)) (r : Ref sig .tc) (h : r ∉ written3) :
    StableHlo.after hostOps3 V (Proc.devRef .tc r) = V (Proc.devRef .tc r) :=
  StableHlo.after_of_writes_sub hostOps3 V writes3 h

/-! ## Each stretch read at the buffers the next region takes -/

/-- Stretch 0 leaves the per-playlist mean of the song features in the buffer region 0 reads its messages from. -/
theorem read0_v25 (V : Valuation τ sig (Elt Ideal)) :
    StableHlo.after hostOps0 V (Proc.devRef .tc main_v25) = meanToPlaylists (V (Proc.devRef .tc main_arg0)) (V (Proc.devRef .tc main_arg2)) (V (Proc.devRef .tc main_arg3)) := by
  simp only [hostOps0]
  after_results_simp <;> rfl

/-- Stretch 0 leaves the playlists' feature rows in their buffer. -/
theorem read0_v6 (V : Valuation τ sig (Elt Ideal)) :
    StableHlo.after hostOps0 V (Proc.devRef .tc main_v6) = featureRows (V (Proc.devRef .tc main_arg4)) (V (Proc.devRef .tc main_arg1)) := by
  simp only [hostOps0]
  after_results_simp <;> rfl

/-- Stretch 0 leaves the first playlist bias as a row. -/
theorem read0_v26 (V : Valuation τ sig (Elt Ideal)) :
    StableHlo.after hostOps0 V (Proc.devRef .tc main_v26) = biasRow (V (Proc.devRef .tc main_arg7)) := by
  simp only [hostOps0]
  after_results_simp <;> rfl

/-- Stretch 1 leaves the per-song mean of the playlist features in the buffer region 1 reads its messages from. -/
theorem read1_v46 (V : Valuation τ sig (Elt Ideal)) :
    StableHlo.after hostOps1 V (Proc.devRef .tc main_v46) = meanToSongs (V (Proc.devRef .tc main_v6)) (V (Proc.devRef .tc main_arg3)) (V (Proc.devRef .tc main_arg2)) := by
  simp only [hostOps1]
  after_results_simp <;> rfl

/-- Stretch 1 leaves the first song bias as a row. -/
theorem read1_v47 (V : Valuation τ sig (Elt Ideal)) :
    StableHlo.after hostOps1 V (Proc.devRef .tc main_v47) = biasRow (V (Proc.devRef .tc main_arg10)) := by
  simp only [hostOps1]
  after_results_simp <;> rfl

/-- Stretch 2 leaves the per-playlist mean of the first layer's song rows in the buffer region 2 reads its messages from. -/
theorem read2_v67 (V : Valuation τ sig (Elt Ideal)) :
    StableHlo.after hostOps2 V (Proc.devRef .tc main_v67) = meanToPlaylists (V (Proc.devRef .tc main_v48)) (V (Proc.devRef .tc main_arg2)) (V (Proc.devRef .tc main_arg3)) := by
  simp only [hostOps2]
  after_results_simp <;> rfl

/-- Stretch 2 leaves the second playlist bias as a row. -/
theorem read2_v68 (V : Valuation τ sig (Elt Ideal)) :
    StableHlo.after hostOps2 V (Proc.devRef .tc main_v68) = biasRow (V (Proc.devRef .tc main_arg13)) := by
  simp only [hostOps2]
  after_results_simp <;> rfl

/-- Stretch 3 leaves the per-song mean of the first layer's playlist rows in the buffer region 3 reads its messages from. -/
theorem read3_v88 (V : Valuation τ sig (Elt Ideal)) :
    StableHlo.after hostOps3 V (Proc.devRef .tc main_v88) = meanToSongs (V (Proc.devRef .tc main_v27)) (V (Proc.devRef .tc main_arg3)) (V (Proc.devRef .tc main_arg2)) := by
  simp only [hostOps3]
  after_results_simp <;> rfl

/-- Stretch 3 leaves the second song bias as a row. -/
theorem read3_v89 (V : Valuation τ sig (Elt Ideal)) :
    StableHlo.after hostOps3 V (Proc.devRef .tc main_v89) = biasRow (V (Proc.devRef .tc main_arg16)) := by
  simp only [hostOps3]
  after_results_simp <;> rfl

variable (m : (ℓ : Loc nD τ sig) → Buf (Elt Ideal) ℓ) (ρ : Dev nD → PrngReg) (c : Dev nD)

/-! ## The kernel's values, as closed functions of the argument arrays -/

/-- The playlists' input features: their rows of the embedding table. -/
def xPlay : FVec Ideal S20000x128 .f32 := featureRows (m ((c : Thread nD τ).loc main_arg4)) (m ((c : Thread nD τ).loc main_arg1))
/-- First layer, playlists. -/
def p1 : FVec Ideal S20000x128 .f32 :=
  linRelu (n := 20000) (meanToPlaylists (m ((c : Thread nD τ).loc main_arg0)) (m ((c : Thread nD τ).loc main_arg2)) (m ((c : Thread nD τ).loc main_arg3))) (xPlay m c) (m ((c : Thread nD τ).loc main_arg5)) (m ((c : Thread nD τ).loc main_arg6)) (fun q => biasRow (m ((c : Thread nD τ).loc main_arg7)) (ix2 (0 : Fin 1) q))
/-- First layer, songs. -/
def s1 : FVec Ideal S100000x128 .f32 :=
  linRelu (n := 100000) (meanToSongs (xPlay m c) (m ((c : Thread nD τ).loc main_arg3)) (m ((c : Thread nD τ).loc main_arg2))) (m ((c : Thread nD τ).loc main_arg0)) (m ((c : Thread nD τ).loc main_arg8)) (m ((c : Thread nD τ).loc main_arg9)) (fun q => biasRow (m ((c : Thread nD τ).loc main_arg10)) (ix2 (0 : Fin 1) q))
/-- Second layer, playlists. -/
def p2 : FVec Ideal S20000x128 .f32 :=
  lin (n := 20000) (meanToPlaylists (s1 m c) (m ((c : Thread nD τ).loc main_arg2)) (m ((c : Thread nD τ).loc main_arg3))) (p1 m c) (m ((c : Thread nD τ).loc main_arg11)) (m ((c : Thread nD τ).loc main_arg12)) (fun q => biasRow (m ((c : Thread nD τ).loc main_arg13)) (ix2 (0 : Fin 1) q))
/-- Second layer, songs. -/
def s2 : FVec Ideal S100000x128 .f32 :=
  lin (n := 100000) (meanToSongs (p1 m c) (m ((c : Thread nD τ).loc main_arg3)) (m ((c : Thread nD τ).loc main_arg2))) (s1 m c) (m ((c : Thread nD τ).loc main_arg14)) (m ((c : Thread nD τ).loc main_arg15)) (fun q => biasRow (m ((c : Thread nD τ).loc main_arg16)) (ix2 (0 : Fin 1) q))

/-! ## A buffer nothing writes is as launched at every boundary

  A buffer that no stretch writes and that is no array of a region keeps its launch contents (an argument that a region
  only READS is one of its arrays, and is read through the region's entry contents instead, below). -/

theorem at2 (r : Ref sig .tc) (hw0 : r ∉ written0) (hs0 : ∀ w, Pipeline.arrRef spec0 w ≠ r) :
    W2 m ρ c (Proc.devRef .tc r) = m ((c : Thread nD τ).loc r) :=
  (W2_of_ne m ρ c r hs0).trans ((keep0 (W0 m ρ c) r hw0).trans rfl)
theorem at4 (r : Ref sig .tc) (hw0 : r ∉ written0) (hs0 : ∀ w, Pipeline.arrRef spec0 w ≠ r)
    (hw1 : r ∉ written1) (hs1 : ∀ w, Pipeline.arrRef spec1 w ≠ r) :
    W4 m ρ c (Proc.devRef .tc r) = m ((c : Thread nD τ).loc r) :=
  (W4_of_ne m ρ c r hs1).trans ((keep1 (W2 m ρ c) r hw1).trans (at2 m ρ c r hw0 hs0))
theorem at6 (r : Ref sig .tc) (hw0 : r ∉ written0) (hs0 : ∀ w, Pipeline.arrRef spec0 w ≠ r)
    (hw1 : r ∉ written1) (hs1 : ∀ w, Pipeline.arrRef spec1 w ≠ r)
    (hw2 : r ∉ written2) (hs2 : ∀ w, Pipeline.arrRef spec2 w ≠ r) :
    W6 m ρ c (Proc.devRef .tc r) = m ((c : Thread nD τ).loc r) :=
  (W6_of_ne m ρ c r hs2).trans ((keep2 (W4 m ρ c) r hw2).trans (at4 m ρ c r hw0 hs0 hw1 hs1))

/-! ## Region 0: the first layer's playlist rows -/

theorem e1_25 : V1 m ρ c main_v25 = meanToPlaylists (m ((c : Thread nD τ).loc main_arg0)) (m ((c : Thread nD τ).loc main_arg2)) (m ((c : Thread nD τ).loc main_arg3)) := read0_v25 (W0 m ρ c)
theorem e1_6 : V1 m ρ c main_v6 = xPlay m c := read0_v6 (W0 m ρ c)
theorem e1_26 : V1 m ρ c main_v26 = biasRow (m ((c : Thread nD τ).loc main_arg7)) := read0_v26 (W0 m ρ c)
theorem e1_a5 : V1 m ρ c main_arg5 = (m ((c : Thread nD τ).loc main_arg5)) := keep0 (W0 m ρ c) main_arg5 (by decide)
theorem e1_a6 : V1 m ρ c main_arg6 = (m ((c : Thread nD τ).loc main_arg6)) := keep0 (W0 m ρ c) main_arg6 (by decide)
theorem val0 : G0 (V1 m ρ) c = p1 m c := by
  unfold G0 p1
  rw [e1_25, e1_6, e1_26, e1_a5, e1_a6]

theorem w2_27 : W2 m ρ c (Proc.devRef .tc main_v27) = p1 m c :=
  ((W2_arr m ρ c 5).trans (final0 (V1 m ρ) c)).trans (val0 m ρ c)
theorem w2_6 : W2 m ρ c (Proc.devRef .tc main_v6) = xPlay m c :=
  ((W2_arr m ρ c 1).trans (((dat0 (F := Ideal) (V1 m ρ) c).arrAt_in 1 rfl _).trans (A_eq0 (V1 m ρ) c 1))).trans (e1_6 m ρ c)

/-! ## Region 1: the first layer's song rows -/

theorem e3_46 : V3 m ρ c main_v46 = meanToSongs (xPlay m c) (m ((c : Thread nD τ).loc main_arg3)) (m ((c : Thread nD τ).loc main_arg2)) :=
  (read1_v46 (W2 m ρ c)).trans (by rw [w2_6 m ρ c, (at2 m ρ c main_arg3 (by decide) (by decide)), (at2 m ρ c main_arg2 (by decide) (by decide))])
theorem e3_47 : V3 m ρ c main_v47 = biasRow (m ((c : Thread nD τ).loc main_arg10)) :=
  (read1_v47 (W2 m ρ c)).trans (by rw [(at2 m ρ c main_arg10 (by decide) (by decide))])
theorem e3_a0 : V3 m ρ c main_arg0 = (m ((c : Thread nD τ).loc main_arg0)) := (keep1 (W2 m ρ c) main_arg0 (by decide)).trans (at2 m ρ c main_arg0 (by decide) (by decide))
theorem e3_a8 : V3 m ρ c main_arg8 = (m ((c : Thread nD τ).loc main_arg8)) := (keep1 (W2 m ρ c) main_arg8 (by decide)).trans (at2 m ρ c main_arg8 (by decide) (by decide))
theorem e3_a9 : V3 m ρ c main_arg9 = (m ((c : Thread nD τ).loc main_arg9)) := (keep1 (W2 m ρ c) main_arg9 (by decide)).trans (at2 m ρ c main_arg9 (by decide) (by decide))
theorem val1 : G1 (V3 m ρ) c = s1 m c := by
  unfold G1 s1
  rw [e3_46, e3_47, e3_a0, e3_a8, e3_a9]

theorem w4_48 : W4 m ρ c (Proc.devRef .tc main_v48) = s1 m c :=
  ((W4_arr m ρ c 5).trans (final1 (V3 m ρ) c)).trans (val1 m ρ c)
theorem w4_27 : W4 m ρ c (Proc.devRef .tc main_v27) = p1 m c :=
  (W4_of_ne m ρ c main_v27 (by decide)).trans ((keep1 (W2 m ρ c) main_v27 (by decide)).trans (w2_27 m ρ c))

/-! ## Region 2: the second layer's playlist rows -/

theorem e5_67 : V5 m ρ c main_v67 = meanToPlaylists (s1 m c) (m ((c : Thread nD τ).loc main_arg2)) (m ((c : Thread nD τ).loc main_arg3)) :=
  (read2_v67 (W4 m ρ c)).trans (by rw [w4_48 m ρ c, (at4 m ρ c main_arg2 (by decide) (by decide) (by decide) (by decide)), (at4 m ρ c main_arg3 (by decide) (by decide) (by decide) (by decide))])
theorem e5_68 : V5 m ρ c main_v68 = biasRow (m ((c : Thread nD τ).loc main_arg13)) :=
  (read2_v68 (W4 m ρ c)).trans (by rw [(at4 m ρ c main_arg13 (by decide) (by decide) (by decide) (by decide))])
theorem e5_27 : V5 m ρ c main_v27 = p1 m c := (keep2 (W4 m ρ c) main_v27 (by decide)).trans (w4_27 m ρ c)
theorem e5_a11 : V5 m ρ c main_arg11 = (m ((c : Thread nD τ).loc main_arg11)) := (keep2 (W4 m ρ c) main_arg11 (by decide)).trans (at4 m ρ c main_arg11 (by decide) (by decide) (by decide) (by decide))
theorem e5_a12 : V5 m ρ c main_arg12 = (m ((c : Thread nD τ).loc main_arg12)) := (keep2 (W4 m ρ c) main_arg12 (by decide)).trans (at4 m ρ c main_arg12 (by decide) (by decide) (by decide) (by decide))
theorem val2 : G2 (V5 m ρ) c = p2 m c := by
  unfold G2 p2
  rw [e5_67, e5_68, e5_27, e5_a11, e5_a12]

theorem w6_69 : W6 m ρ c (Proc.devRef .tc main_v69) = p2 m c :=
  ((W6_arr m ρ c 5).trans (final2 (V5 m ρ) c)).trans (val2 m ρ c)
theorem w6_27 : W6 m ρ c (Proc.devRef .tc main_v27) = p1 m c :=
  ((W6_arr m ρ c 1).trans (((dat2 (F := Ideal) (V5 m ρ) c).arrAt_in 1 rfl _).trans (A_eq2 (V5 m ρ) c 1))).trans (e5_27 m ρ c)
theorem w6_48 : W6 m ρ c (Proc.devRef .tc main_v48) = s1 m c :=
  (W6_of_ne m ρ c main_v48 (by decide)).trans ((keep2 (W4 m ρ c) main_v48 (by decide)).trans (w4_48 m ρ c))

/-! ## Region 3: the second layer's song rows -/

theorem e7_88 : V7 m ρ c main_v88 = meanToSongs (p1 m c) (m ((c : Thread nD τ).loc main_arg3)) (m ((c : Thread nD τ).loc main_arg2)) :=
  (read3_v88 (W6 m ρ c)).trans (by rw [w6_27 m ρ c, (at6 m ρ c main_arg3 (by decide) (by decide) (by decide) (by decide) (by decide) (by decide)), (at6 m ρ c main_arg2 (by decide) (by decide) (by decide) (by decide) (by decide) (by decide))])
theorem e7_89 : V7 m ρ c main_v89 = biasRow (m ((c : Thread nD τ).loc main_arg16)) :=
  (read3_v89 (W6 m ρ c)).trans (by rw [(at6 m ρ c main_arg16 (by decide) (by decide) (by decide) (by decide) (by decide) (by decide))])
theorem e7_48 : V7 m ρ c main_v48 = s1 m c := (keep3 (W6 m ρ c) main_v48 (by decide)).trans (w6_48 m ρ c)
theorem e7_a14 : V7 m ρ c main_arg14 = (m ((c : Thread nD τ).loc main_arg14)) := (keep3 (W6 m ρ c) main_arg14 (by decide)).trans (at6 m ρ c main_arg14 (by decide) (by decide) (by decide) (by decide) (by decide) (by decide))
theorem e7_a15 : V7 m ρ c main_arg15 = (m ((c : Thread nD τ).loc main_arg15)) := (keep3 (W6 m ρ c) main_arg15 (by decide)).trans (at6 m ρ c main_arg15 (by decide) (by decide) (by decide) (by decide) (by decide) (by decide))
theorem val3 : G3 (V7 m ρ) c = s2 m c := by
  unfold G3 s2
  rw [e7_88, e7_89, e7_48, e7_a14, e7_a15]

/-! ## The two results at the last boundary -/

/-- The song result buffer ends at the second layer's song rows. -/
theorem w8_90 : W8 m ρ c (Proc.devRef .tc main_v90) = s2 m c :=
  ((W8_arr m ρ c 5).trans (final3 (V7 m ρ) c)).trans (val3 m ρ c)
/-- The playlist result buffer, written by region 2 and untouched since, ends at the second layer's playlist rows. -/
theorem w8_69 : W8 m ρ c (Proc.devRef .tc main_v69) = p2 m c :=
  (W8_of_ne m ρ c main_v69 (by decide)).trans ((keep3 (W6 m ρ c) main_v69 (by decide)).trans (w6_69 m ρ c))

end Cert.Sage

end
-- ==== Proof.SageRef.lean ====
/-
  The reference, layer by layer, against the specification. Each layer's result is a host matrix product of the
  aggregated messages with the left weight, plus the bias broadcast over the rows, plus the product of the destination
  features with the right weight (and, in the first layer, the clamp at zero). Read at an entry `(p, c)` through the
  generated read-at-an-index lemmas each product is the sum over the contraction position, the bias its entry `c`;
  the order "first product, bias, second product" is the specification's "both products, bias" by
  `Cert.Sage.linAt_bias_first`.
-/
import proofs.«137762_j29463475650789_1_alg».proof.Proof.Gen.ReferenceIdeal.Read
import proofs.«137762_j29463475650789_1_alg».proof.Proof.SageSpec

noncomputable section

namespace Cert.Sage.Ref

open Idealize.ShloMosaic Idealize.ShloMosaic.ValueIdx Idealize.SL.Sem
open Cert.ReferenceIdeal Cert.ReferenceIdeal.Gen Cert.ReferenceIdeal.Read Cert.Sage

/-- Two rank-2 indices (one rank-1 index) given by their coordinates agree coordinate by coordinate. -/
local macro "ix_cases2" : tactic => `(tactic| exact funext fun a => Fin.ext (by match a with | ⟨0, _⟩ => rfl | ⟨1, _⟩ => rfl))
local macro "ix_cases1" : tactic => `(tactic| exact funext fun a => Fin.ext (by match a with | ⟨0, _⟩ => rfl))

variable (x0 : (⟨S100000x128, .f32⟩ : BufTy).Contents (Elt Ideal)) (x1 : (⟨S20000, .i32⟩ : BufTy).Contents (Elt Ideal)) (x2 x3 : (⟨S500000, .i32⟩ : BufTy).Contents (Elt Ideal))
  (x4 : (⟨S20000x128, .f32⟩ : BufTy).Contents (Elt Ideal)) (x5 x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal)) (x11 x12 : (⟨S128x128, .f32⟩ : BufTy).Contents (Elt Ideal)) (x13 : (⟨S128, .f32⟩ : BufTy).Contents (Elt Ideal))
  (x14 x15 : (⟨S128x128, .f32⟩ : BufTy).Contents (Elt Ideal)) (x16 : (⟨S128, .f32⟩ : BufTy).Contents (Elt Ideal))

/-- First layer, playlists: the clamped linear step of the mean of the song rows and the playlists' own rows. -/
theorem playlists1 :
    val_main_v57 (F := Ideal) x0 x1 x2 x3 x4 x5 x6 x7
      = linRelu (n := 20000) (val_main_v25 (F := Ideal) x0 x2 x3) (val_main_v6 (F := Ideal) x1 x4) x5 x6 (fun q => x7 (ix1 q)) := by
  funext i
  obtain ⟨p, c, rfl⟩ : ∃ (p : Fin 20000) (c : Fin 128), i = ix2 p c := ⟨i 0, i 1, eq_ix2 i⟩
  have hl1 : ∀ k : Fin 128, lidx_main_v26 (ix2 p c) k = ix2 p k := fun k => by ix_cases2
  have hr1 : ∀ k : Fin 128, ridx_main_v26 (ix2 p c) k = ix2 k c := fun k => by ix_cases2
  have hl2 : ∀ k : Fin 128, lidx_main_v30 (ix2 p c) k = ix2 p k := fun k => by ix_cases2
  have hr2 : ∀ k : Fin 128, ridx_main_v30 (ix2 p c) k = ix2 k c := fun k => by ix_cases2
  have hb2 : idx_main_v28 (ix2 p c) = ix2 (0 : Fin 1) c := by ix_cases2
  have hb1 : idx_main_v27 (ix2 (0 : Fin 1) c) = ix1 c := by ix_cases1
  rw [val_main_v57_apply, val_main_v31_apply, val_main_v29_apply, val_main_v26_apply, val_main_v30_apply, val_main_v28_apply, hb2, val_main_v27_apply, hb1, val_main_call0_v0_apply, val_main_call0_cst_apply]
  simp only [hl1, hr1, hl2, hr2]
  exact congrArg₂ max (linAt_bias_first (n := 20000) (val_main_v25 (F := Ideal) x0 x2 x3) (val_main_v6 (F := Ideal) x1 x4) x5 x6 (fun q => x7 (ix1 q)) p c) rfl

/-- First layer, songs: the clamped linear step of the mean of the playlist rows and the songs' own rows. -/
theorem songs1 :
    val_main_v58 (F := Ideal) x0 x1 x2 x3 x4 x8 x9 x10
      = linRelu (n := 100000) (val_main_v50 (F := Ideal) x1 x2 x3 x4) (x0) x8 x9 (fun q => x10 (ix1 q)) := by
  funext i
  obtain ⟨p, c, rfl⟩ : ∃ (p : Fin 100000) (c : Fin 128), i = ix2 p c := ⟨i 0, i 1, eq_ix2 i⟩
  have hl1 : ∀ k : Fin 128, lidx_main_v51 (ix2 p c) k = ix2 p k := fun k => by ix_cases2
  have hr1 : ∀ k : Fin 128, ridx_main_v51 (ix2 p c) k = ix2 k c := fun k => by ix_cases2
  have hl2 : ∀ k : Fin 128, lidx_main_v55 (ix2 p c) k = ix2 p k := fun k => by ix_cases2
  have hr2 : ∀ k : Fin 128, ridx_main_v55 (ix2 p c) k = ix2 k c := fun k => by ix_cases2
  have hb2 : idx_main_v53 (ix2 p c) = ix2 (0 : Fin 1) c := by ix_cases2
  have hb1 : idx_main_v52 (ix2 (0 : Fin 1) c) = ix1 c := by ix_cases1
  rw [val_main_v58_apply, val_main_v56_apply, val_main_v54_apply, val_main_v51_apply, val_main_v55_apply, val_main_v53_apply, hb2, val_main_v52_apply, hb1, val_main_call1_v0_apply, val_main_call1_cst_apply]
  simp only [hl1, hr1, hl2, hr2]
  exact congrArg₂ max (linAt_bias_first (n := 100000) (val_main_v50 (F := Ideal) x1 x2 x3 x4) (x0) x8 x9 (fun q => x10 (ix1 q)) p c) rfl

/-- Second layer, playlists: the linear step of the mean of the first layer's song rows and the first layer's playlist rows. -/
theorem playlists2 :
    val_main_v83 (F := Ideal) x0 x1 x2 x3 x4 x5 x6 x7 x8 x9 x10 x11 x12 x13
      = lin (n := 20000) (val_main_v77 (F := Ideal) x0 x1 x2 x3 x4 x8 x9 x10) (val_main_v57 (F := Ideal) x0 x1 x2 x3 x4 x5 x6 x7) x11 x12 (fun q => x13 (ix1 q)) := by
  funext i
  obtain ⟨p, c, rfl⟩ : ∃ (p : Fin 20000) (c : Fin 128), i = ix2 p c := ⟨i 0, i 1, eq_ix2 i⟩
  have hl1 : ∀ k : Fin 128, lidx_main_v78 (ix2 p c) k = ix2 p k := fun k => by ix_cases2
  have hr1 : ∀ k : Fin 128, ridx_main_v78 (ix2 p c) k = ix2 k c := fun k => by ix_cases2
  have hl2 : ∀ k : Fin 128, lidx_main_v82 (ix2 p c) k = ix2 p k := fun k => by ix_cases2
  have hr2 : ∀ k : Fin 128, ridx_main_v82 (ix2 p c) k = ix2 k c := fun k => by ix_cases2
  have hb2 : idx_main_v80 (ix2 p c) = ix2 (0 : Fin 1) c := by ix_cases2
  have hb1 : idx_main_v79 (ix2 (0 : Fin 1) c) = ix1 c := by ix_cases1
  rw [val_main_v83_apply, val_main_v81_apply, val_main_v78_apply, val_main_v82_apply, val_main_v80_apply, hb2, val_main_v79_apply, hb1]
  simp only [hl1, hr1, hl2, hr2]
  exact linAt_bias_first (n := 20000) (val_main_v77 (F := Ideal) x0 x1 x2 x3 x4 x8 x9 x10) (val_main_v57 (F := Ideal) x0 x1 x2 x3 x4 x5 x6 x7) x11 x12 (fun q => x13 (ix1 q)) p c

/-- Second layer, songs: the linear step of the mean of the first layer's playlist rows and the first layer's song rows. -/
theorem songs2 :
    val_main_v108 (F := Ideal) x0 x1 x2 x3 x4 x5 x6 x7 x8 x9 x10 x14 x15 x16
      = lin (n := 100000) (val_main_v102 (F := Ideal) x0 x1 x2 x3 x4 x5 x6 x7) (val_main_v58 (F := Ideal) x0 x1 x2 x3 x4 x8 x9 x10) x14 x15 (fun q => x16 (ix1 q)) := by
  funext i
  obtain ⟨p, c, rfl⟩ : ∃ (p : Fin 100000) (c : Fin 128), i = ix2 p c := ⟨i 0, i 1, eq_ix2 i⟩
  have hl1 : ∀ k : Fin 128, lidx_main_v103 (ix2 p c) k = ix2 p k := fun k => by ix_cases2
  have hr1 : ∀ k : Fin 128, ridx_main_v103 (ix2 p c) k = ix2 k c := fun k => by ix_cases2
  have hl2 : ∀ k : Fin 128, lidx_main_v107 (ix2 p c) k = ix2 p k := fun k => by ix_cases2
  have hr2 : ∀ k : Fin 128, ridx_main_v107 (ix2 p c) k = ix2 k c := fun k => by ix_cases2
  have hb2 : idx_main_v105 (ix2 p c) = ix2 (0 : Fin 1) c := by ix_cases2
  have hb1 : idx_main_v104 (ix2 (0 : Fin 1) c) = ix1 c := by ix_cases1
  rw [val_main_v108_apply, val_main_v106_apply, val_main_v103_apply, val_main_v107_apply, val_main_v105_apply, hb2, val_main_v104_apply, hb1]
  simp only [hl1, hr1, hl2, hr2]
  exact linAt_bias_first (n := 100000) (val_main_v102 (F := Ideal) x0 x1 x2 x3 x4 x5 x6 x7) (val_main_v58 (F := Ideal) x0 x1 x2 x3 x4 x8 x9 x10) x14 x15 (fun q => x16 (ix1 q)) p c

end Cert.Sage.Ref

end
-- ==== Proof.SageBridge.lean ====
/-
  The reference's stages in the kernel's spelling. The host operations of the two programs are the same operations
  with the same dimension numbers (each program prints its own copy of the records), so a reference stage that gathers,
  scatter-adds and divides IS the shared mean-aggregation of `SageHost` applied to the previous stage — by unfolding the
  stage definitions, never the operations. With that, each layer's stage is the specification's linear step of the
  same arrays the kernel's regions end at; the bias read through the reference's two broadcasts and through the kernel's
  reshape is the same entry.
-/
import proofs.«137762_j29463475650789_1_alg».proof.Proof.SageRef
import proofs.«137762_j29463475650789_1_alg».proof.Proof.SageHost

noncomputable section

namespace Cert.Sage.Bridge

open Idealize.ShloMosaic Idealize.ShloMosaic.ValueIdx Idealize.SL.Sem
open Cert.ReferenceIdeal.Read Cert.Sage

variable (x0 : (⟨Cert.ReferenceIdeal.S100000x128, .f32⟩ : BufTy).Contents (Elt Ideal)) (x1 : (⟨Cert.ReferenceIdeal.S20000, .i32⟩ : BufTy).Contents (Elt Ideal)) (x2 x3 : (⟨Cert.ReferenceIdeal.S500000, .i32⟩ : BufTy).Contents (Elt Ideal))
  (x4 : (⟨Cert.ReferenceIdeal.S20000x128, .f32⟩ : BufTy).Contents (Elt Ideal)) (x5 x6 : (⟨Cert.ReferenceIdeal.S128x128, .f32⟩ : BufTy).Contents (Elt Ideal)) (x7 : (⟨Cert.ReferenceIdeal.S128, .f32⟩ : BufTy).Contents (Elt Ideal))
  (x8 x9 : (⟨Cert.ReferenceIdeal.S128x128, .f32⟩ : BufTy).Contents (Elt Ideal)) (x10 : (⟨Cert.ReferenceIdeal.S128, .f32⟩ : BufTy).Contents (Elt Ideal)) (x11 x12 : (⟨Cert.ReferenceIdeal.S128x128, .f32⟩ : BufTy).Contents (Elt Ideal)) (x13 : (⟨Cert.ReferenceIdeal.S128, .f32⟩ : BufTy).Contents (Elt Ideal))
  (x14 x15 : (⟨Cert.ReferenceIdeal.S128x128, .f32⟩ : BufTy).Contents (Elt Ideal)) (x16 : (⟨Cert.ReferenceIdeal.S128, .f32⟩ : BufTy).Contents (Elt Ideal))

/-! ## The shared host terms -/

theorem rows_eq : val_main_v6 (F := Ideal) x1 x4 = featureRows x4 x1 := rfl
theorem mean25_eq : val_main_v25 (F := Ideal) x0 x2 x3 = meanToPlaylists x0 x2 x3 := rfl
theorem mean50_eq : val_main_v50 (F := Ideal) x1 x2 x3 x4 = meanToSongs (val_main_v6 (F := Ideal) x1 x4) x3 x2 := rfl
theorem mean77_eq : val_main_v77 (F := Ideal) x0 x1 x2 x3 x4 x8 x9 x10
    = meanToPlaylists (val_main_v58 (F := Ideal) x0 x1 x2 x3 x4 x8 x9 x10) x2 x3 := rfl
theorem mean102_eq : val_main_v102 (F := Ideal) x0 x1 x2 x3 x4 x5 x6 x7
    = meanToSongs (val_main_v57 (F := Ideal) x0 x1 x2 x3 x4 x5 x6 x7) x3 x2 := rfl

/-- Entry `q` of a bias is entry `(0, q)` of the bias as a row. -/
theorem bias_eq (b : (⟨Cert.ReferenceIdeal.S128, .f32⟩ : BufTy).Contents (Elt Ideal)) :
    (fun q : Fin 128 => b (ix1 q)) = fun q : Fin 128 => biasRow b (ix2 (0 : Fin 1) q) :=
  funext fun q => (biasRow_apply b q).symm

/-! ## The four layer results -/

theorem playlists1 : val_main_v57 (F := Ideal) x0 x1 x2 x3 x4 x5 x6 x7 = (linRelu (n := 20000) (meanToPlaylists x0 x2 x3) (featureRows x4 x1) x5 x6 (fun q => biasRow x7 (ix2 (0 : Fin 1) q))) :=
  (Ref.playlists1 x0 x1 x2 x3 x4 x5 x6 x7).trans (by rw [mean25_eq, rows_eq, bias_eq x7])

theorem songs1 : val_main_v58 (F := Ideal) x0 x1 x2 x3 x4 x8 x9 x10 = (linRelu (n := 100000) (meanToSongs (featureRows x4 x1) x3 x2) x0 x8 x9 (fun q => biasRow x10 (ix2 (0 : Fin 1) q))) :=
  (Ref.songs1 x0 x1 x2 x3 x4 x8 x9 x10).trans (by rw [mean50_eq, rows_eq, bias_eq x10])

theorem playlists2 : val_main_v83 (F := Ideal) x0 x1 x2 x3 x4 x5 x6 x7 x8 x9 x10 x11 x12 x13
    = lin (n := 20000) (meanToPlaylists (linRelu (n := 100000) (meanToSongs (featureRows x4 x1) x3 x2) x0 x8 x9 (fun q => biasRow x10 (ix2 (0 : Fin 1) q))) x2 x3) (linRelu (n := 20000) (meanToPlaylists x0 x2 x3) (featureRows x4 x1) x5 x6 (fun q => biasRow x7 (ix2 (0 : Fin 1) q))) x11 x12 (fun q => biasRow x13 (ix2 (0 : Fin 1) q)) :=
  (Ref.playlists2 x0 x1 x2 x3 x4 x5 x6 x7 x8 x9 x10 x11 x12 x13).trans
    (by rw [mean77_eq, songs1, playlists1, bias_eq x13])

theorem songs2 : val_main_v108 (F := Ideal) x0 x1 x2 x3 x4 x5 x6 x7 x8 x9 x10 x14 x15 x16
    = lin (n := 100000) (meanToSongs (linRelu (n := 20000) (meanToPlaylists x0 x2 x3) (featureRows x4 x1) x5 x6 (fun q => biasRow x7 (ix2 (0 : Fin 1) q))) x3 x2) (linRelu (n := 100000) (meanToSongs (featureRows x4 x1) x3 x2) x0 x8 x9 (fun q => biasRow x10 (ix2 (0 : Fin 1) q))) x14 x15 (fun q => biasRow x16 (ix2 (0 : Fin 1) q)) :=
  (Ref.songs2 x0 x1 x2 x3 x4 x5 x6 x7 x8 x9 x10 x14 x15 x16).trans
    (by rw [mean102_eq, playlists1, songs1, bias_eq x16])

end Cert.Sage.Bridge

end
-- ==== Proof.lean ====
/-
  The proof of `Cert.Claim` for a two-layer heterogeneous SAGE convolution between songs and playlists.

  Both programs compute, per layer and per node type, the mean over incoming edges of the source rows (a gather, a
  scatter-add, a division by the edge count clamped at one: the same host operations in both) and then the linear step
  `mean · Wl + own · Wr + b`, clamped at zero after the first layer. The kernel does the linear step in a kernel region,
  ten thousand rows per grid point, its matrix operands narrowed to bf16 first — the identity on exact values — and adds
  the bias LAST; the reference adds the bias to the first product and the second product last. Addition on the
  extended reals is commutative and associative, so the two orders agree entry by entry with no finiteness needed, and
  the clamp is the same maximum with the same zero. Hence the four layer results agree as whole arrays, layer by layer:
  equal first-layer rows go through the same host operations into equal second-layer inputs.

  The frames of the two kernel programs are the generated ones; the reference's is its generated run with the results
  dropped; the ideal pass rewrote nothing, so `preserves` is `True`.
-/
import proofs.«137762_j29463475650789_1_alg».proof.Defs
import proofs.«137762_j29463475650789_1_alg».proof.Proof.Gen.Kernel
import proofs.«137762_j29463475650789_1_alg».proof.Proof.Gen.Kernel.Skeleton
import proofs.«137762_j29463475650789_1_alg».proof.Proof.Gen.Kernel.Launch
import proofs.«137762_j29463475650789_1_alg».proof.Proof.Gen.Kernel.Points
import proofs.«137762_j29463475650789_1_alg».proof.Proof.Gen.Kernel.Frame
import proofs.«137762_j29463475650789_1_alg».proof.Proof.Gen.KernelIdeal
import proofs.«137762_j29463475650789_1_alg».proof.Proof.Gen.KernelIdeal.Skeleton
import proofs.«137762_j29463475650789_1_alg».proof.Proof.Gen.KernelIdeal.Launch
import proofs.«137762_j29463475650789_1_alg».proof.Proof.Gen.KernelIdeal.Points
import proofs.«137762_j29463475650789_1_alg».proof.Proof.Gen.KernelIdeal.Frame
import proofs.«137762_j29463475650789_1_alg».proof.Proof.Gen.ReferenceIdeal
import proofs.«137762_j29463475650789_1_alg».proof.Proof.Gen.ReferenceIdeal.Run
import proofs.«137762_j29463475650789_1_alg».proof.Proof.Gen.ReferenceIdeal.Read
import proofs.«137762_j29463475650789_1_alg».proof.Proof.Gen.Pre_finite_inputs
import proofs.«137762_j29463475650789_1_alg».proof.Proof.SageRun
import proofs.«137762_j29463475650789_1_alg».proof.Proof.SageChain
import proofs.«137762_j29463475650789_1_alg».proof.Proof.SageBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped from the post. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories agreeing on the arguments both programs end with the second layer's song rows and playlist rows:
    the kernel's result buffers by the walk through its regions (`Cert.Sage.w8_90`, `w8_69`), the reference's by its
    generated run read stage by stage (`Cert.Sage.Bridge.songs2`, `playlists2`). -/
theorem algebraic : Cert.algebraic_KernelIdeal_ReferenceIdeal := by
  intro m ρ m' ρ' _ hagree
  refine ⟨fun c => Cert.Sage.s2 m c, fun c => Cert.Sage.p2 m c,
    (θ_run Cert.KernelIdeal.defs _ _).mono (fun r h c => ⟨(h c).1.trans (Cert.Sage.w8_90 m ρ c),
      (h c).2.1.trans (Cert.Sage.w8_69 m ρ c), (h c).2.2⟩) (Cert.Sage.run_results m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16⟩ := hagree c
    show Cert.ReferenceIdeal.Value.res_main_v108 m' c = Cert.Sage.s2 m c
    rw [Cert.ReferenceIdeal.Read.val_main_v108_eq, h0, h1, h2, h3, h4, h5, h6, h7, h8, h9, h10, h14, h15, h16]
    exact Cert.Sage.Bridge.songs2 _ _ _ _ _ _ _ _ _ _ _ _ _ _
  · obtain ⟨h0, h1, h2, h3, h4, h5, h6, h7, h8, h9, h10, h11, h12, h13, h14, h15, h16⟩ := hagree c
    show Cert.ReferenceIdeal.Value.res_main_v83 m' c = Cert.Sage.p2 m c
    rw [Cert.ReferenceIdeal.Read.val_main_v83_eq, h0, h1, h2, h3, h4, h5, h6, h7, h8, h9, h10, h11, h12, h13]
    exact Cert.Sage.Bridge.playlists2 _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
